-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x40x64 : Shape := ⟨3, ![2048, 40, 64]⟩
abbrev S64x780x64 : Shape := ⟨3, ![64, 780, 64]⟩
abbrev S_ : Shape := ⟨0, ![]⟩

class Facts : Prop where
  bcast_S_S2048x40x64 : S_.BroadcastsInDim S2048x40x64 (![] : Fin 0 → Fin S2048x40x64.rank)
  reducesTo_S2048x40x64_S_d0_1_2 : S2048x40x64.ReducesTo [0, 1, 2] S_
  h_S_ : 0 < S_.numel
  bcast_S_S64x780x64 : S_.BroadcastsInDim S64x780x64 (![] : Fin 0 → Fin S64x780x64.rank)
  reducesTo_S64x780x64_S_d0_1_2 : S64x780x64.ReducesTo [0, 1, 2] S_

variable [Facts]

def fn {F : FTy → Type} [FloatOps F] (main_arg0 : FVec F S2048x40x64 .f32) (main_arg1 : FVec F S64x780x64 .f32) (main_arg2 : IVec S_ 32) : IVec S_ 1 :=
  let main_v0 : FVec F S2048x40x64 .f32 := Host.absf main_arg0
  let main_cst : FVec F S_ .f32 := constant S_ .f32 0x7F800000#32
  let main_v1 : FVec F S2048x40x64 .f32 := broadcastInDim S2048x40x64 ![] bcast_S_S2048x40x64 main_cst
  let main_v2 : IVec S2048x40x64 1 := cmpf .olt main_v0 main_v1
  let main_c : IVec S_ 1 := constantI S_ 1 1#1
  let main_v3 : IVec S_ 1 := (fun x v => Host.reduce IntOp.andi x v reducesTo_S2048x40x64_S_d0_1_2 h_S_) main_v2 main_c
  let main_v4 : FVec F S64x780x64 .f32 := Host.absf main_arg1
  let main_cst_0 : FVec F S_ .f32 := constant S_ .f32 0x7F800000#32
  let main_v5 : FVec F S64x780x64 .f32 := broadcastInDim S64x780x64 ![] bcast_S_S64x780x64 main_cst_0
  let main_v6 : IVec S64x780x64 1 := cmpf .olt main_v4 main_v5
  let main_c_1 : IVec S_ 1 := constantI S_ 1 1#1
  let main_v7 : IVec S_ 1 := (fun x v => Host.reduce IntOp.andi x v reducesTo_S64x780x64_S_d0_1_2 h_S_) main_v6 main_c_1
  let main_v8 : IVec S_ 1 := andi main_v3 main_v7
  main_v8
-- ==== Kernel.lean ====
abbrev S2048x40x64 : Shape := ⟨3, ![2048, 40, 64]⟩
abbrev S64x780x64 : Shape := ⟨3, ![64, 780, 64]⟩
abbrev S_ : Shape := ⟨0, ![]⟩
abbrev S780x64 : Shape := ⟨2, ![780, 64]⟩
abbrev S2048x780 : Shape := ⟨2, ![2048, 780]⟩
abbrev S32x40x64 : Shape := ⟨3, ![32, 40, 64]⟩
abbrev S32x780 : Shape := ⟨2, ![32, 780]⟩
abbrev S32x1x64 : Shape := ⟨3, ![32, 1, 64]⟩
abbrev S32x64 : Shape := ⟨2, ![32, 64]⟩
abbrev S32x128x64 : Shape := ⟨3, ![32, 128, 64]⟩
abbrev S128x64 : Shape := ⟨2, ![128, 64]⟩
abbrev S1x128x64 : Shape := ⟨3, ![1, 128, 64]⟩
abbrev S32x128 : Shape := ⟨2, ![32, 128]⟩
abbrev S32x12x64 : Shape := ⟨3, ![32, 12, 64]⟩
abbrev S12x64 : Shape := ⟨2, ![12, 64]⟩
abbrev S1x12x64 : Shape := ⟨3, ![1, 12, 64]⟩
abbrev S32x12 : Shape := ⟨2, ![32, 12]⟩

abbrev nBuf : Space → Nat
  | .hbm => 5
  | .vmem => 7
  | .smem => 0
  | _ => 0

abbrev bufTy : (tb : Table) → Fin (tcTables nBuf tb) → BufTy
  | .hbm, ⟨0, _⟩ => ⟨S2048x40x64, .f32⟩
  | .hbm, ⟨1, _⟩ => ⟨S64x780x64, .f32⟩
  | .hbm, ⟨2, _⟩ => ⟨S_, .i32⟩
  | .hbm, ⟨3, _⟩ => ⟨S780x64, .f32⟩
  | .hbm, ⟨4, _⟩ => ⟨S2048x780, .f32⟩
  | .local _ .vmem, ⟨0, _⟩ => ⟨S64x780x64, .f32⟩
  | .local _ .vmem, ⟨1, _⟩ => ⟨S780x64, .f32⟩
  | .local _ .vmem, ⟨2, _⟩ => ⟨S32x40x64, .f32⟩
  | .local _ .vmem, ⟨3, _⟩ => ⟨S32x40x64, .f32⟩
  | .local _ .vmem, ⟨4, _⟩ => ⟨S780x64, .f32⟩
  | .local _ .vmem, ⟨5, _⟩ => ⟨S32x780, .f32⟩
  | .local _ .vmem, ⟨6, _⟩ => ⟨S32x780, .f32⟩
  | _, _ => ⟨S2048x40x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x780x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S780x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x40x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S780x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x780 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S64x780x64_S64x780x64_0_0_0 : ∀ a, (![0, 0, 0] : Fin 3 → Nat) a + S64x780x64.size a ≤ S64x780x64.size a
  h_S64x780x64 : 0 < S64x780x64.numel
  reduces_S64x780x64_S780x64 : S64x780x64.Reduces [0] S780x64
  inb_S780x64_S780x64_0_0 : ∀ a, (![0, 0] : Fin 2 → Nat) a + S780x64.size a ≤ S780x64.size a
  h_S780x64 : 0 < S780x64.numel
  inb_S32x40x64_S32x40x64_0_0_0 : ∀ a, (![0, 0, 0] : Fin 3 → Nat) a + S32x40x64.size a ≤ S32x40x64.size a
  h_S32x40x64 : 0 < S32x40x64.numel
  slices_S32x40x64_o0_0_0_S32x1x64 : S32x40x64.Slices ![0, 0, 0] S32x1x64
  shapeCasts_S32x1x64_S32x64 : S32x1x64.ShapeCasts S32x64
  slices_S32x40x64_o0_1_0_S32x1x64 : S32x40x64.Slices ![0, 1, 0] S32x1x64
  slices_S32x40x64_o0_2_0_S32x1x64 : S32x40x64.Slices ![0, 2, 0] S32x1x64
  slices_S32x40x64_o0_3_0_S32x1x64 : S32x40x64.Slices ![0, 3, 0] S32x1x64
  slices_S32x40x64_o0_4_0_S32x1x64 : S32x40x64.Slices ![0, 4, 0] S32x1x64
  slices_S32x40x64_o0_5_0_S32x1x64 : S32x40x64.Slices ![0, 5, 0] S32x1x64
  slices_S32x40x64_o0_6_0_S32x1x64 : S32x40x64.Slices ![0, 6, 0] S32x1x64
  slices_S32x40x64_o0_7_0_S32x1x64 : S32x40x64.Slices ![0, 7, 0] S32x1x64
  slices_S32x40x64_o0_8_0_S32x1x64 : S32x40x64.Slices ![0, 8, 0] S32x1x64
  slices_S32x40x64_o0_9_0_S32x1x64 : S32x40x64.Slices ![0, 9, 0] S32x1x64
  slices_S32x40x64_o0_10_0_S32x1x64 : S32x40x64.Slices ![0, 10, 0] S32x1x64
  slices_S32x40x64_o0_11_0_S32x1x64 : S32x40x64.Slices ![0, 11, 0] S32x1x64
  slices_S32x40x64_o0_12_0_S32x1x64 : S32x40x64.Slices ![0, 12, 0] S32x1x64
  slices_S32x40x64_o0_13_0_S32x1x64 : S32x40x64.Slices ![0, 13, 0] S32x1x64
  slices_S32x40x64_o0_14_0_S32x1x64 : S32x40x64.Slices ![0, 14, 0] S32x1x64
  slices_S32x40x64_o0_15_0_S32x1x64 : S32x40x64.Slices ![0, 15, 0] S32x1x64
  slices_S32x40x64_o0_16_0_S32x1x64 : S32x40x64.Slices ![0, 16, 0] S32x1x64
  slices_S32x40x64_o0_17_0_S32x1x64 : S32x40x64.Slices ![0, 17, 0] S32x1x64
  slices_S32x40x64_o0_18_0_S32x1x64 : S32x40x64.Slices ![0, 18, 0] S32x1x64
  slices_S32x40x64_o0_19_0_S32x1x64 : S32x40x64.Slices ![0, 19, 0] S32x1x64
  slices_S32x40x64_o0_20_0_S32x1x64 : S32x40x64.Slices ![0, 20, 0] S32x1x64
  slices_S32x40x64_o0_21_0_S32x1x64 : S32x40x64.Slices ![0, 21, 0] S32x1x64
  slices_S32x40x64_o0_22_0_S32x1x64 : S32x40x64.Slices ![0, 22, 0] S32x1x64
  slices_S32x40x64_o0_23_0_S32x1x64 : S32x40x64.Slices ![0, 23, 0] S32x1x64
  slices_S32x40x64_o0_24_0_S32x1x64 : S32x40x64.Slices ![0, 24, 0] S32x1x64
  slices_S32x40x64_o0_25_0_S32x1x64 : S32x40x64.Slices ![0, 25, 0] S32x1x64
  slices_S32x40x64_o0_26_0_S32x1x64 : S32x40x64.Slices ![0, 26, 0] S32x1x64
  slices_S32x40x64_o0_27_0_S32x1x64 : S32x40x64.Slices ![0, 27, 0] S32x1x64
  slices_S32x40x64_o0_28_0_S32x1x64 : S32x40x64.Slices ![0, 28, 0] S32x1x64
  slices_S32x40x64_o0_29_0_S32x1x64 : S32x40x64.Slices ![0, 29, 0] S32x1x64
  slices_S32x40x64_o0_30_0_S32x1x64 : S32x40x64.Slices ![0, 30, 0] S32x1x64
  slices_S32x40x64_o0_31_0_S32x1x64 : S32x40x64.Slices ![0, 31, 0] S32x1x64
  slices_S32x40x64_o0_32_0_S32x1x64 : S32x40x64.Slices ![0, 32, 0] S32x1x64
  slices_S32x40x64_o0_33_0_S32x1x64 : S32x40x64.Slices ![0, 33, 0] S32x1x64
  slices_S32x40x64_o0_34_0_S32x1x64 : S32x40x64.Slices ![0, 34, 0] S32x1x64
  slices_S32x40x64_o0_35_0_S32x1x64 : S32x40x64.Slices ![0, 35, 0] S32x1x64
  slices_S32x40x64_o0_36_0_S32x1x64 : S32x40x64.Slices ![0, 36, 0] S32x1x64
  slices_S32x40x64_o0_37_0_S32x1x64 : S32x40x64.Slices ![0, 37, 0] S32x1x64
  slices_S32x40x64_o0_38_0_S32x1x64 : S32x40x64.Slices ![0, 38, 0] S32x1x64
  slices_S32x40x64_o0_39_0_S32x1x64 : S32x40x64.Slices ![0, 39, 0] S32x1x64
  shapeCasts_S780x64_S780x64 : S780x64.ShapeCasts S780x64
  shapeCasts_S32x64_S32x1x64 : S32x64.ShapeCasts S32x1x64
  concatenates_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x1x64_S32x128x64_d1 : Shape.Concatenates (S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: S32x1x64 :: []) S32x128x64 1
  slices_S780x64_o0_0_S128x64 : S780x64.Slices ![0, 0] S128x64
  shapeCasts_S128x64_S1x128x64 : S128x64.ShapeCasts S1x128x64
  broadcasts_S1x128x64_S32x128x64 : S1x128x64.Broadcasts S32x128x64
  reduces_S32x128x64_S32x128 : S32x128x64.Reduces [2] S32x128
  slices_S780x64_o128_0_S128x64 : S780x64.Slices ![128, 0] S128x64
  slices_S780x64_o256_0_S128x64 : S780x64.Slices ![256, 0] S128x64
  slices_S780x64_o384_0_S128x64 : S780x64.Slices ![384, 0] S128x64
  slices_S780x64_o512_0_S128x64 : S780x64.Slices ![512, 0] S128x64
  slices_S780x64_o640_0_S128x64 : S780x64.Slices ![640, 0] S128x64
  concatenates_S32x1x64_S32x1x64_S32x1x64_S32x1x64_S32x1x64_S32x1x64_S32x1x64_S32x1x64_S32x1x64_S32x1x64_S32x1x64_S32x1x64_S32x12x64_d1 : Shape.Concatenates [S32x1x64, S32x1x64, S32x1x64, S32x1x64, S32x1x64, S32x1x64, S32x1x64, S32x1x64, S32x1x64, S32x1x64, S32x1x64, S32x1x64] S32x12x64 1
  slices_S780x64_o768_0_S12x64 : S780x64.Slices ![768, 0] S12x64
  shapeCasts_S12x64_S1x12x64 : S12x64.ShapeCasts S1x12x64
  broadcasts_S1x12x64_S32x12x64 : S1x12x64.Broadcasts S32x12x64
  reduces_S32x12x64_S32x12 : S32x12x64.Reduces [2] S32x12
  concatenates_S32x128_S32x128_S32x128_S32x128_S32x128_S32x128_S32x12_S32x780_d1 : Shape.Concatenates [S32x128, S32x128, S32x128, S32x128, S32x128, S32x128, S32x12] S32x780 1
  inb_S32x780_S32x780_0_0 : ∀ a, (![0, 0] : Fin 2 → Nat) a + S32x780.size a ≤ S32x780.size a
  h_S32x780 : 0 < S32x780.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x780x64.size a ≤ S64x780x64.size a
  hwx0_0 : ∀ i : grid0.Coords, EltTy.bits .f32 = 32 ∨ (Rect.block (s := S64x780x64) S64x780x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S780x64.size a ≤ S780x64.size a
  hwx0_1 : ∀ i : grid0.Coords, EltTy.bits .f32 = 32 ∨ (Rect.block (s := S780x64) S780x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x40x64.size a ≤ S2048x40x64.size a
  hwx1_0 : ∀ i : grid1.Coords, EltTy.bits .f32 = 32 ∨ (Rect.block (s := S2048x40x64) S32x40x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S780x64.size a ≤ S780x64.size a
  hwx1_1 : ∀ i : grid1.Coords, EltTy.bits .f32 = 32 ∨ (Rect.block (s := S780x64) S780x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x780.size a ≤ S2048x780.size a
  hwx1_2 : ∀ i : grid1.Coords, EltTy.bits .f32 = 32 ∨ (Rect.block (s := S2048x780) S32x780.size (cc1_transform_2 i) (hinb1_2 i)).WholeWords (EltTy.packing .f32)

variable [Facts₀]

abbrev win0_0 : Pipeline.Window sig grid0 :=
  Pipeline.Window.ofSpec (Memref.whole main_arg1) S64x780x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S780x64.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S32x40x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S780x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S32x780.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2048x40x64 : Shape := ⟨3, ![2048, 40, 64]⟩
abbrev S64x780x64 : Shape := ⟨3, ![64, 780, 64]⟩
abbrev S_ : Shape := ⟨0, ![]⟩
abbrev S780 : Shape := ⟨1, ![780]⟩
abbrev S780x1 : Shape := ⟨2, ![780, 1]⟩
abbrev S2048x780x64 : Shape := ⟨3, ![2048, 780, 64]⟩
abbrev S780x64 : Shape := ⟨2, ![780, 64]⟩
abbrev S1x780x64 : Shape := ⟨3, ![1, 780, 64]⟩
abbrev S2048x780 : Shape := ⟨2, ![2048, 780]⟩

abbrev nBuf : Space → Nat
  | .hbm => 27
  | .vmem => 0
  | .smem => 0
  | _ => 0

abbrev bufTy : (tb : Table) → Fin (tcTables nBuf tb) → BufTy
  | .hbm, ⟨0, _⟩ => ⟨S2048x40x64, .f32⟩
  | .hbm, ⟨1, _⟩ => ⟨S64x780x64, .f32⟩
  | .hbm, ⟨2, _⟩ => ⟨S_, .i32⟩
  | .hbm, ⟨3, _⟩ => ⟨S780, .i32⟩
  | .hbm, ⟨4, _⟩ => ⟨S780, .i1⟩
  | .hbm, ⟨5, _⟩ => ⟨S780, .i32⟩
  | .hbm, ⟨6, _⟩ => ⟨S780, .i1⟩
  | .hbm, ⟨7, _⟩ => ⟨S_, .i32⟩
  | .hbm, ⟨8, _⟩ => ⟨S780, .i32⟩
  | .hbm, ⟨9, _⟩ => ⟨S780, .i32⟩
  | .hbm, ⟨10, _⟩ => ⟨S780, .i32⟩
  | .hbm, ⟨11, _⟩ => ⟨S780x1, .i32⟩
  | .hbm, ⟨12, _⟩ => ⟨S2048x780x64, .f32⟩
  | .hbm, ⟨13, _⟩ => ⟨S_, .i32⟩
  | .hbm, ⟨14, _⟩ => ⟨S780, .i32⟩
  | .hbm, ⟨15, _⟩ => ⟨S780, .i32⟩
  | .hbm, ⟨16, _⟩ => ⟨S780, .i32⟩
  | .hbm, ⟨17, _⟩ => ⟨S780x1, .i32⟩
  | .hbm, ⟨18, _⟩ => ⟨S2048x780x64, .f32⟩
  | .hbm, ⟨19, _⟩ => ⟨S_, .f32⟩
  | .hbm, ⟨20, _⟩ => ⟨S780x64, .f32⟩
  | .hbm, ⟨21, _⟩ => ⟨S1x780x64, .f32⟩
  | .hbm, ⟨22, _⟩ => ⟨S2048x780x64, .f32⟩
  | .hbm, ⟨23, _⟩ => ⟨S2048x780x64, .f32⟩
  | .hbm, ⟨24, _⟩ => ⟨S2048x780x64, .f32⟩
  | .hbm, ⟨25, _⟩ => ⟨S_, .f32⟩
  | .hbm, ⟨26, _⟩ => ⟨S2048x780, .f32⟩
  | _, _ => ⟨S2048x40x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S780 : S_.BroadcastsInDim S780 (![] : Fin 0 → Fin S780.rank)
  bcast_S780_S780x1_0 : S780.BroadcastsInDim S780x1 (![0] : Fin 1 → Fin S780x1.rank)
  reducesTo_S64x780x64_S780x64_d0 : S64x780x64.ReducesTo [0] S780x64
  h_S_ : 0 < S_.numel
  bcast_S780x64_S1x780x64_1_2 : S780x64.BroadcastsInDim S1x780x64 (![1, 2] : Fin 2 → Fin S1x780x64.rank)
  bcast_S1x780x64_S2048x780x64_0_1_2 : S1x780x64.BroadcastsInDim S2048x780x64 (![0, 1, 2] : Fin 3 → Fin S2048x780x64.rank)
  reducesTo_S2048x780x64_S2048x780_d2 : S2048x780x64.ReducesTo [2] S2048x780
  gather_S2048x40x64_S780x1_S2048x780x64_02_1_n_n_1_1_2048164_wf : GatherDims.WF S2048x40x64 S780x1 S2048x780x64 [0, 2] [1] [] [1] [] 1 ![2048, 1, 64]

variable [Facts₀]

def gather_S2048x40x64_S780x1_S2048x780x64_02_1_n_n_1_1_2048164 : GatherDims S2048x40x64 S780x1 S2048x780x64 where
  offsetDims := [0, 2]
  collapsedSliceDims := [1]
  operandBatchingDims := []
  startIndicesBatchingDims := []
  startIndexMap := [1]
  indexVectorDim := 1
  sliceSizes := ![2048, 1, 64]
  wf := gather_S2048x40x64_S780x1_S2048x780x64_02_1_n_n_1_1_2048164_wf

class Facts : Prop extends Facts₀ where

variable [Facts]
-- ==== Proof.LibStack.lean ====
/-
  Reading a stack of unit slabs at an index.

  A list of `N` arrays `[a, c]`, each re-cast to a slab `[a, 1, c]` and the slabs concatenated along the middle axis, is
  the array `[a, N, c]` whose entry `(i, q, j)` is entry `(i, j)` of the `q`-th array. The lemmas here read the two
  re-casts, a leading-axis broadcast and the stack itself at an index given by coordinates; they mention no program.
-/
import Idealize.ShloMosaic.Lib.Pipeline.Value
import Idealize.ShloMosaic.Lib.ValueIdx
import Idealize.ShloMosaic.Lib.ValueLayout

namespace Cert.Lib.Stack

open Idealize.ShloMosaic Idealize.ShloMosaic.ValueIdx

variable {α : Type}

/-- `[a, 1, c]` viewed as `[a, c]`: at `(i, j)` the operand at `(i, 0, j)` (the two row-major positions agree). -/
theorem shapeCast_a1c_ac_apply {a c : ℕ} (x : (⟨3, ![a, 1, c]⟩ : Shape).Idx → α)
    (h : (⟨3, ![a, 1, c]⟩ : Shape).ShapeCasts ⟨2, ![a, c]⟩) (i : Fin a) (j : Fin c) :
    shapeCast ⟨2, ![a, c]⟩ x h (ix2 i j) = x (ix3 i (0 : Fin 1) j) :=
  shapeCast_apply x h _ _ (by
    rw [Shape.rowMajor_val_three, Shape.rowMajor_val_two]
    show (i.val * 1 + 0) * c + j.val = i.val * c + j.val
    rw [Nat.mul_one, Nat.add_zero])

/-- `[a, c]` viewed as `[a, 1, c]`: at `(i, u, j)` the operand at `(i, j)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- `[1, b, c]` broadcast over a new extent of the leading axis: at `(i, q, j)` the operand at `(0, q, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (q : Fin b) (j : Fin c) :
    broadcastTo ⟨3, ![a, b, c]⟩ v h (ix3 i q j) = v (ix3 (0 : Fin 1) q j) := by
  refine broadcastTo_apply v h (ix3 i q j) (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if c = 1 then 0 else j.val
    split
    · have := j.isLt; omega
    · rfl

/-- A stack along the middle axis of `N` slabs `[a, 1, c]`, slab `n` being `f n`: at `(i, q, j)` it is slab `q` at
    `(i, 0, j)`. -/
theorem stack_unit_apply {a N c : ℕ} (f : Fin N → ((⟨3, ![a, 1, c]⟩ : Shape).Idx → α))
    (h : Shape.Concatenates ((List.ofFn fun n : Fin N => (⟨⟨3, ![a, 1, c]⟩, f n⟩ : (s : Shape) × (s.Idx → α))).map (·.1))
      ⟨3, ![a, N, c]⟩ 1)
    (i : Fin a) (q : Fin N) (j : Fin c) :
    concatenate ⟨3, ![a, N, c]⟩ 1 (List.ofFn fun n : Fin N => (⟨⟨3, ![a, 1, c]⟩, f n⟩ : (s : Shape) × (s.Idx → α))) h (ix3 i q j)
      = f q (ix3 i (0 : Fin 1) j) :=
  concatenate_ofFn_unit_apply (t := ⟨3, ![a, N, c]⟩) (s₁ := ⟨3, ![a, 1, c]⟩) 1 f h rfl rfl (ix3 i q j) q rfl (ix3 i (0 : Fin 1) j)
    (fun b hb => by
      match b with
      | ⟨0, _⟩ => rfl
      | ⟨1, _⟩ => exact absurd rfl hb
      | ⟨2, _⟩ => rfl)

/-- The list a concatenation is read from may be replaced by an equal one. -/
theorem concatenate_congr_list {t : Shape} {a : Fin t.rank} {xs ys : List ((s : Shape) × (s.Idx → α))} (e : xs = ys)
    (h : Shape.Concatenates (xs.map (·.1)) t a) : concatenate t a xs h = concatenate t a ys (e ▸ h) := by
  subst e; rfl

/-- The shapes of `N` pieces of one shape. -/
theorem map_fst_ofFn {N : ℕ} (s₁ : Shape) (f : Fin N → (s₁.Idx → α)) :
    (List.ofFn fun n : Fin N => (⟨s₁, f n⟩ : (s : Shape) × (s.Idx → α))).map (·.1) = List.replicate N s₁ := by
  rw [List.map_ofFn]
  exact List.ofFn_const N s₁

end Cert.Lib.Stack
-- ==== Proof.KerFields.lean ====
/-
  The pieces of the main body's arithmetic, each stated by the body's own operations with the field number a
  variable, and each read at an index.

  A block `x : [32, 40, 64]` holds 32 batch rows of 40 fields of 64 coordinates. The body cuts field `f` out as a slab
  `[32, 1, 64]`, views it as `[32, 64]`, and for a group of `N` consecutive pairs stacks the first fields of the pairs
  (and likewise the second fields) into `[32, N, 64]`; it multiplies the first stack by the group's rows of the summed
  weights, then by the second stack, and sums over the last axis. At `(b, q)` that is

      ∑ e, (x[b, first q, e] · s[off + q, e]) · x[b, second q, e].
-/
import proofs.«110757_j56392920597050_1_alg».proof.Proof.Gen.KernelIdeal
import proofs.«110757_j56392920597050_1_alg».proof.Proof.LibStack
import Idealize.ShloMosaic.PureOps.Ideal.Laws

noncomputable section

namespace Cert.Pairwise.KerSide

open Idealize.ShloMosaic Idealize.ShloMosaic.ValueIdx Cert.KernelIdeal Cert.KernelIdeal.Gen Cert.Lib.Stack

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## One field -/

/-- Cutting one field out of a block `[32, 40, 64]` stays inside it. -/
theorem slices_field (f : Fin 40) : S32x40x64.Slices ![0, f.val, 0] S32x1x64 :=
  ⟨rfl, fun a => by
    match a with
    | ⟨0, _⟩ => show 0 + 32 ≤ 32; omega
    | ⟨1, _⟩ => show f.val + 1 ≤ 40; omega
    | ⟨2, _⟩ => show 0 + 64 ≤ 64; omega⟩

/-- Field `f` of a block as the body forms it: the slab at field `f`, viewed as `[32, 64]`. -/
def fieldSlice (v0 : Vec Ideal S32x40x64 .f32) (f : Fin 40) : FVec Ideal S32x64 .f32 :=
  shapeCast S32x64 (extractStridedSlice S32x1x64 ![0, f.val, 0] v0 (slices_field f)) shapeCasts_S32x1x64_S32x64

theorem fieldSlice_apply (v0 : Vec Ideal S32x40x64 .f32) (f : Fin 40) (b : Fin 32) (e : Fin 64) :
    fieldSlice v0 f (ix2 b e) = v0 (ix3 b f e) :=
  (shapeCast_a1c_ac_apply _ _ b e).trans (slice3_axis1_apply f.val v0 _ b (0 : Fin 1) e f rfl)

/-- The slab the body stacks for field `f`: the field viewed as `[32, 1, 64]` again. -/
def fieldSlab (v0 : Vec Ideal S32x40x64 .f32) (f : Fin 40) : FVec Ideal S32x1x64 .f32 :=
  shapeCast S32x1x64 (fieldSlice v0 f) shapeCasts_S32x64_S32x1x64

theorem fieldSlab_apply (v0 : Vec Ideal S32x40x64 .f32) (f : Fin 40) (b : Fin 32) (u : Fin 1) (e : Fin 64) :
    fieldSlab v0 f (ix3 b u e) = v0 (ix3 b f e) :=
  (shapeCast_ac_a1c_apply _ _ b u e).trans (fieldSlice_apply v0 f b e)

/-! ## A stack of fields chosen by a table -/

/-- The slabs of `N` fields chosen by `tbl`, as the list a concatenation takes. -/
abbrev slabs (v0 : Vec Ideal S32x40x64 .f32) {N : ℕ} (tbl : Fin N → Fin 40) : List ((s : Shape) × (s.Idx → Ideal .f32)) :=
  List.ofFn fun q : Fin N => (⟨S32x1x64, fieldSlab v0 (tbl q)⟩ : (s : Shape) × (s.Idx → Ideal .f32))

/-- `N` unit slabs fill `[32, N, 64]` along the middle axis, whatever they hold. -/
theorem slabs_concatenates (v0 : Vec Ideal S32x40x64 .f32) {N : ℕ} (tbl : Fin N → Fin 40)
    (h : Shape.Concatenates (List.replicate N S32x1x64) ⟨3, ![32, N, 64]⟩ 1) :
    Shape.Concatenates ((slabs v0 tbl).map (·.1)) ⟨3, ![32, N, 64]⟩ 1 :=
  (map_fst_ofFn S32x1x64 fun q => fieldSlab v0 (tbl q)).symm ▸ h

/-- The stack `[32, N, 64]` of the fields `tbl` names. -/
def stackOf (v0 : Vec Ideal S32x40x64 .f32) {N : ℕ} (tbl : Fin N → Fin 40)
    (h : Shape.Concatenates (List.replicate N S32x1x64) ⟨3, ![32, N, 64]⟩ 1) : FVec Ideal ⟨3, ![32, N, 64]⟩ .f32 :=
  concatenate ⟨3, ![32, N, 64]⟩ 1 (slabs v0 tbl) (slabs_concatenates v0 tbl h)

theorem stackOf_apply (v0 : Vec Ideal S32x40x64 .f32) {N : ℕ} (tbl : Fin N → Fin 40)
    (h : Shape.Concatenates (List.replicate N S32x1x64) ⟨3, ![32, N, 64]⟩ 1) (b : Fin 32) (q : Fin N) (e : Fin 64) :
    stackOf v0 tbl h (ix3 b q e) = v0 (ix3 b (tbl q) e) :=
  (stack_unit_apply (fun q => fieldSlab v0 (tbl q)) _ b q e).trans (fieldSlab_apply v0 (tbl q) b 0 e)

/-! ## One group of pairs -/

/-- Rows `off … off + N − 1` of the summed weights `[780, 64]`, spread over the 32 batch rows. -/
def weightRows (ks : Vec Ideal S780x64 .f32) (N off : ℕ) (hs : S780x64.Slices ![off, 0] ⟨2, ![N, 64]⟩)
    (hc : (⟨2, ![N, 64]⟩ : Shape).ShapeCasts ⟨3, ![1, N, 64]⟩) (hb : (⟨3, ![1, N, 64]⟩ : Shape).Broadcasts ⟨3, ![32, N, 64]⟩) :
    FVec Ideal ⟨3, ![32, N, 64]⟩ .f32 :=
  broadcastTo ⟨3, ![32, N, 64]⟩
    (shapeCast ⟨3, ![1, N, 64]⟩ (extractStridedSlice ⟨2, ![N, 64]⟩ ![off, 0] (shapeCast S780x64 ks shapeCasts_S780x64_S780x64) hs) hc) hb

theorem weightRows_apply (ks : Vec Ideal S780x64 .f32) (N off : ℕ) (hs : S780x64.Slices ![off, 0] ⟨2, ![N, 64]⟩)
    (hc : (⟨2, ![N, 64]⟩ : Shape).ShapeCasts ⟨3, ![1, N, 64]⟩) (hb : (⟨3, ![1, N, 64]⟩ : Shape).Broadcasts ⟨3, ![32, N, 64]⟩)
    (b : Fin 32) (q : Fin N) (e : Fin 64) (p : Fin 780) (hp : p.val = off + q.val) :
    weightRows ks N off hs hc hb (ix3 b q e) = ks (ix2 p e) := by
  unfold weightRows
  rw [shapeCast_self]
  exact (broadcastTo_1bc_abc_apply _ hb b q e).trans
    ((shapeCast_ab_1ab_apply _ hc (0 : Fin 1) q e).trans (slice2_axis0_apply off ks hs q e p hp))

/-- One group's result `[32, N]`: the two stacks and the weight rows multiplied, summed over the last axis. -/
def groupOf (v0 : Vec Ideal S32x40x64 .f32) (ks : Vec Ideal S780x64 .f32) (N off : ℕ) (tblI tblJ : Fin N → Fin 40)
    (h : Shape.Concatenates (List.replicate N S32x1x64) ⟨3, ![32, N, 64]⟩ 1)
    (hs : S780x64.Slices ![off, 0] ⟨2, ![N, 64]⟩)
    (hc : (⟨2, ![N, 64]⟩ : Shape).ShapeCasts ⟨3, ![1, N, 64]⟩) (hb : (⟨3, ![1, N, 64]⟩ : Shape).Broadcasts ⟨3, ![32, N, 64]⟩)
    (hr : (⟨3, ![32, N, 64]⟩ : Shape).Reduces [2] ⟨2, ![32, N]⟩) : FVec Ideal ⟨2, ![32, N]⟩ .f32 :=
  multiReduction .add [2] ⟨2, ![32, N]⟩
    (mulf (mulf (stackOf v0 tblI h) (weightRows ks N off hs hc hb)) (stackOf v0 tblJ h))
    0x00000000#32 hr (.inl rfl) rfl

theorem groupOf_apply (v0 : Vec Ideal S32x40x64 .f32) (ks : Vec Ideal S780x64 .f32) (N off : ℕ) (tblI tblJ : Fin N → Fin 40)
    (h : Shape.Concatenates (List.replicate N S32x1x64) ⟨3, ![32, N, 64]⟩ 1)
    (hs : S780x64.Slices ![off, 0] ⟨2, ![N, 64]⟩)
    (hc : (⟨2, ![N, 64]⟩ : Shape).ShapeCasts ⟨3, ![1, N, 64]⟩) (hb : (⟨3, ![1, N, 64]⟩ : Shape).Broadcasts ⟨3, ![32, N, 64]⟩)
    (hr : (⟨3, ![32, N, 64]⟩ : Shape).Reduces [2] ⟨2, ![32, N]⟩)
    (b : Fin 32) (q : Fin N) (p : Fin 780) (hp : p.val = off + q.val) :
    groupOf v0 ks N off tblI tblJ h hs hc hb hr (ix2 b q)
      = ∑ e : Fin 64, (v0 (ix3 b (tblI q) e) * ks (ix2 p e)) * v0 (ix3 b (tblJ q) e) := by
  unfold groupOf
  refine (Ideal.multiReduction_add_single _ _ hr _ _ (ix2 b q)).trans ?_
  show ∑ e : Fin 64, _ = _
  refine Finset.sum_congr rfl fun e _ => ?_
  have hl : hr.lift (ix2 b q) e = ix3 b q e := by
    funext d; apply Fin.ext
    match d with
    | ⟨0, _⟩ => rfl
    | ⟨1, _⟩ => rfl
    | ⟨2, _⟩ => rfl
  rw [hl, mulf_apply, mulf_apply, stackOf_apply, stackOf_apply, weightRows_apply ks N off hs hc hb b q e p hp]

end Cert.Pairwise.KerSide

end
-- ==== Proof.Tables.lean ====
/-
  The two field tables of the 780 pairs `(i, j)`, `i < j < 40`, in lexicographic order: the reference states them as
  two constant index arrays, and every entry is a field number below 40 (so the gather's clamp never acts).
-/
import proofs.«110757_j56392920597050_1_alg».proof.ReferenceIdeal

namespace Cert.Pairwise

open Idealize.ShloMosaic

/-- Every entry of the first table is a field number. -/
theorem lit0_lt : ∀ p : Fin 780, (Cert.ReferenceIdeal.lit0 p).toNat < 40 := by decide +kernel

/-- Every entry of the second table is a field number. -/
theorem lit1_lt : ∀ p : Fin 780, (Cert.ReferenceIdeal.lit1 p).toNat < 40 := by decide +kernel

/-- The first field of pair `p`. -/
def tI (p : Fin 780) : Fin 40 := ⟨(Cert.ReferenceIdeal.lit0 p).toNat, lit0_lt p⟩

/-- The second field of pair `p`. -/
def tJ (p : Fin 780) : Fin 40 := ⟨(Cert.ReferenceIdeal.lit1 p).toNat, lit1_lt p⟩

end Cert.Pairwise
-- ==== Proof.KerPayloads.lean ====
/-
  The two bodies' stored values read at an index.

  The weight-sum body stores the sum of its `[64, 780, 64]` block over the leading axis. The main body stores the
  `[32, 780]` block made of six groups of 128 pairs and one of 12 side by side; pair `p` lies in the group `p / 128`
  at position `p % 128`, and its entry is the group's entry there: the sum over the 64 coordinates of the product of
  the pair's first field, the summed weights' row `p` and the pair's second field.
-/
import proofs.«110757_j56392920597050_1_alg».proof.Proof.Gen.KernelIdeal.Skeleton
import proofs.«110757_j56392920597050_1_alg».proof.Proof.KerFields
import proofs.«110757_j56392920597050_1_alg».proof.Proof.Tables

noncomputable section

namespace Cert.Pairwise.KerSide

open Idealize.ShloMosaic Idealize.ShloMosaic.ValueIdx Cert.KernelIdeal Cert.KernelIdeal.Gen Cert.Lib.Stack

/-- Pair number `off + q`: the `q`-th pair of a group that starts at pair `off`. -/
def pairAtOff (N off : ℕ) (hN : off + N ≤ 780) (q : Fin N) : Fin 780 := ⟨off + q.val, by have := q.isLt; omega⟩

theorem pairAtOff_eq (N off : ℕ) (hN : off + N ≤ 780) (q : Fin N) (p : Fin 780) (hp : p.val = off + q.val) :
    pairAtOff N off hN q = p := Fin.ext hp.symm

/-- A group whose fields are read off the two pair tables. -/
def groupAt (v0 : Vec Ideal S32x40x64 .f32) (ks : Vec Ideal S780x64 .f32) (N off : ℕ) (hN : off + N ≤ 780)
    (h : Shape.Concatenates (List.replicate N S32x1x64) ⟨3, ![32, N, 64]⟩ 1)
    (hs : S780x64.Slices ![off, 0] ⟨2, ![N, 64]⟩)
    (hc : (⟨2, ![N, 64]⟩ : Shape).ShapeCasts ⟨3, ![1, N, 64]⟩) (hb : (⟨3, ![1, N, 64]⟩ : Shape).Broadcasts ⟨3, ![32, N, 64]⟩)
    (hr : (⟨3, ![32, N, 64]⟩ : Shape).Reduces [2] ⟨2, ![32, N]⟩) : FVec Ideal ⟨2, ![32, N]⟩ .f32 :=
  groupOf v0 ks N off (fun q => tI (pairAtOff N off hN q)) (fun q => tJ (pairAtOff N off hN q)) h hs hc hb hr

theorem groupAt_apply (v0 : Vec Ideal S32x40x64 .f32) (ks : Vec Ideal S780x64 .f32) (N off : ℕ) (hN : off + N ≤ 780)
    (h : Shape.Concatenates (List.replicate N S32x1x64) ⟨3, ![32, N, 64]⟩ 1)
    (hs : S780x64.Slices ![off, 0] ⟨2, ![N, 64]⟩)
    (hc : (⟨2, ![N, 64]⟩ : Shape).ShapeCasts ⟨3, ![1, N, 64]⟩) (hb : (⟨3, ![1, N, 64]⟩ : Shape).Broadcasts ⟨3, ![32, N, 64]⟩)
    (hr : (⟨3, ![32, N, 64]⟩ : Shape).Reduces [2] ⟨2, ![32, N]⟩)
    (b : Fin 32) (q : Fin N) (p : Fin 780) (hp : p.val = off + q.val) :
    groupAt v0 ks N off hN h hs hc hb hr (ix2 b q)
      = ∑ e : Fin 64, (v0 (ix3 b (tI p) e) * ks (ix2 p e)) * v0 (ix3 b (tJ p) e) := by
  unfold groupAt
  rw [groupOf_apply v0 ks N off _ _ h hs hc hb hr b q p hp]
  simp only [pairAtOff_eq N off hN q p hp]

/-- 128 unit slabs fill `[32, 128, 64]`, and 12 fill `[32, 12, 64]`. -/
theorem slabs128_ok : Shape.Concatenates (List.replicate 128 S32x1x64) ⟨3, ![32, 128, 64]⟩ 1 := by decide
theorem slabs12_ok : Shape.Concatenates (List.replicate 12 S32x1x64) ⟨3, ![32, 12, 64]⟩ 1 := by decide

/-- The whole block `[32, 780]` the body stores: six groups of 128 pairs and one of 12, side by side. -/
def mainVal (v0 : Vec Ideal S32x40x64 .f32) (ks : Vec Ideal S780x64 .f32) : FVec Ideal S32x780 .f32 :=
  concatenate S32x780 1
    [⟨S32x128, groupAt v0 ks 128 0 (by decide) slabs128_ok slices_S780x64_o0_0_S128x64 shapeCasts_S128x64_S1x128x64 broadcasts_S1x128x64_S32x128x64 reduces_S32x128x64_S32x128⟩,
     ⟨S32x128, groupAt v0 ks 128 128 (by decide) slabs128_ok slices_S780x64_o128_0_S128x64 shapeCasts_S128x64_S1x128x64 broadcasts_S1x128x64_S32x128x64 reduces_S32x128x64_S32x128⟩,
     ⟨S32x128, groupAt v0 ks 128 256 (by decide) slabs128_ok slices_S780x64_o256_0_S128x64 shapeCasts_S128x64_S1x128x64 broadcasts_S1x128x64_S32x128x64 reduces_S32x128x64_S32x128⟩,
     ⟨S32x128, groupAt v0 ks 128 384 (by decide) slabs128_ok slices_S780x64_o384_0_S128x64 shapeCasts_S128x64_S1x128x64 broadcasts_S1x128x64_S32x128x64 reduces_S32x128x64_S32x128⟩,
     ⟨S32x128, groupAt v0 ks 128 512 (by decide) slabs128_ok slices_S780x64_o512_0_S128x64 shapeCasts_S128x64_S1x128x64 broadcasts_S1x128x64_S32x128x64 reduces_S32x128x64_S32x128⟩,
     ⟨S32x128, groupAt v0 ks 128 640 (by decide) slabs128_ok slices_S780x64_o640_0_S128x64 shapeCasts_S128x64_S1x128x64 broadcasts_S1x128x64_S32x128x64 reduces_S32x128x64_S32x128⟩,
     ⟨S32x12, groupAt v0 ks 12 768 (by decide) slabs12_ok slices_S780x64_o768_0_S12x64 shapeCasts_S12x64_S1x12x64 broadcasts_S1x12x64_S32x12x64 reduces_S32x12x64_S32x12⟩]
    concatenates_S32x128_S32x128_S32x128_S32x128_S32x128_S32x128_S32x12_S32x780_d1

/-- The main body's block at batch row `b` and pair `p`. -/
theorem mainVal_apply (v0 : Vec Ideal S32x40x64 .f32) (ks : Vec Ideal S780x64 .f32) (b : Fin 32) (p : Fin 780) :
    mainVal v0 ks (ix2 b p) = ∑ e : Fin 64, (v0 (ix3 b (tI p) e) * ks (ix2 p e)) * v0 (ix3 b (tJ p) e) := by
  have hlt := p.isLt
  unfold mainVal
  by_cases h0 : p.val < 128
  · have hq : p.val - 0 < 128 := by omega
    have hp : p.val = 0 + (⟨p.val - 0, hq⟩ : Fin 128).val := by show p.val = 0 + (p.val - 0); omega
    refine (concatenate_apply_piece 1 _ _ (ix2 b p) 0 (by simp) S32x128 _ rfl rfl 0 rfl
      (ix2 b (⟨p.val - 0, hq⟩ : Fin 128)) (fun d hd => ?_) ?_).trans
      (groupAt_apply v0 ks 128 0 _ _ _ _ _ _ b ⟨p.val - 0, hq⟩ p hp)
    · match d with
      | ⟨0, _⟩ => rfl
      | ⟨1, _⟩ => exact absurd rfl hd
    · show 0 + (p.val - 0) = p.val; omega
  by_cases h1 : p.val < 256
  · have hq : p.val - 128 < 128 := by omega
    have hp : p.val = 128 + (⟨p.val - 128, hq⟩ : Fin 128).val := by show p.val = 128 + (p.val - 128); omega
    refine (concatenate_apply_piece 1 _ _ (ix2 b p) 1 (by simp) S32x128 _ rfl rfl 128 rfl
      (ix2 b (⟨p.val - 128, hq⟩ : Fin 128)) (fun d hd => ?_) ?_).trans
      (groupAt_apply v0 ks 128 128 _ _ _ _ _ _ b ⟨p.val - 128, hq⟩ p hp)
    · match d with
      | ⟨0, _⟩ => rfl
      | ⟨1, _⟩ => exact absurd rfl hd
    · show 128 + (p.val - 128) = p.val; omega
  by_cases h2 : p.val < 384
  · have hq : p.val - 256 < 128 := by omega
    have hp : p.val = 256 + (⟨p.val - 256, hq⟩ : Fin 128).val := by show p.val = 256 + (p.val - 256); omega
    refine (concatenate_apply_piece 1 _ _ (ix2 b p) 2 (by simp) S32x128 _ rfl rfl 256 rfl
      (ix2 b (⟨p.val - 256, hq⟩ : Fin 128)) (fun d hd => ?_) ?_).trans
      (groupAt_apply v0 ks 128 256 _ _ _ _ _ _ b ⟨p.val - 256, hq⟩ p hp)
    · match d with
      | ⟨0, _⟩ => rfl
      | ⟨1, _⟩ => exact absurd rfl hd
    · show 256 + (p.val - 256) = p.val; omega
  by_cases h3 : p.val < 512
  · have hq : p.val - 384 < 128 := by omega
    have hp : p.val = 384 + (⟨p.val - 384, hq⟩ : Fin 128).val := by show p.val = 384 + (p.val - 384); omega
    refine (concatenate_apply_piece 1 _ _ (ix2 b p) 3 (by simp) S32x128 _ rfl rfl 384 rfl
      (ix2 b (⟨p.val - 384, hq⟩ : Fin 128)) (fun d hd => ?_) ?_).trans
      (groupAt_apply v0 ks 128 384 _ _ _ _ _ _ b ⟨p.val - 384, hq⟩ p hp)
    · match d with
      | ⟨0, _⟩ => rfl
      | ⟨1, _⟩ => exact absurd rfl hd
    · show 384 + (p.val - 384) = p.val; omega
  by_cases h4 : p.val < 640
  · have hq : p.val - 512 < 128 := by omega
    have hp : p.val = 512 + (⟨p.val - 512, hq⟩ : Fin 128).val := by show p.val = 512 + (p.val - 512); omega
    refine (concatenate_apply_piece 1 _ _ (ix2 b p) 4 (by simp) S32x128 _ rfl rfl 512 rfl
      (ix2 b (⟨p.val - 512, hq⟩ : Fin 128)) (fun d hd => ?_) ?_).trans
      (groupAt_apply v0 ks 128 512 _ _ _ _ _ _ b ⟨p.val - 512, hq⟩ p hp)
    · match d with
      | ⟨0, _⟩ => rfl
      | ⟨1, _⟩ => exact absurd rfl hd
    · show 512 + (p.val - 512) = p.val; omega
  by_cases h5 : p.val < 768
  · have hq : p.val - 640 < 128 := by omega
    have hp : p.val = 640 + (⟨p.val - 640, hq⟩ : Fin 128).val := by show p.val = 640 + (p.val - 640); omega
    refine (concatenate_apply_piece 1 _ _ (ix2 b p) 5 (by simp) S32x128 _ rfl rfl 640 rfl
      (ix2 b (⟨p.val - 640, hq⟩ : Fin 128)) (fun d hd => ?_) ?_).trans
      (groupAt_apply v0 ks 128 640 _ _ _ _ _ _ b ⟨p.val - 640, hq⟩ p hp)
    · match d with
      | ⟨0, _⟩ => rfl
      | ⟨1, _⟩ => exact absurd rfl hd
    · show 640 + (p.val - 640) = p.val; omega
  · have hq : p.val - 768 < 12 := by omega
    have hp : p.val = 768 + (⟨p.val - 768, hq⟩ : Fin 12).val := by show p.val = 768 + (p.val - 768); omega
    refine (concatenate_apply_piece 1 _ _ (ix2 b p) 6 (by simp) S32x12 _ rfl rfl 768 rfl
      (ix2 b (⟨p.val - 768, hq⟩ : Fin 12)) (fun d hd => ?_) ?_).trans
      (groupAt_apply v0 ks 12 768 _ _ _ _ _ _ b ⟨p.val - 768, hq⟩ p hp)
    · match d with
      | ⟨0, _⟩ => rfl
      | ⟨1, _⟩ => exact absurd rfl hd
    · show 768 + (p.val - 768) = p.val; omega

/-- The weight-sum body's block at pair `p` and coordinate `e`: the sum over the leading axis. -/
theorem ksum_payload (x0 : Vec Ideal S64x780x64 .f32) (p : Fin 780) (e : Fin 64) :
    k0_pay1 (F := Ideal) x0 (ix2 p e) = ∑ a : Fin 64, x0 (ix3 a p e) := by
  unfold k0_pay1
  refine (Ideal.multiReduction_add_single x0 _ reduces_S64x780x64_S780x64 _ _ (ix2 p e)).trans ?_
  show ∑ a : Fin 64, _ = _
  refine Finset.sum_congr rfl fun a _ => congrArg x0 ?_
  funext d; apply Fin.ext
  match d with
  | ⟨0, _⟩ => rfl
  | ⟨1, _⟩ => rfl
  | ⟨2, _⟩ => rfl

end Cert.Pairwise.KerSide

end
-- ==== Proof.KerMain.lean ====
/-
  What each body leaves in its output block, read at an index.

  Each body stores once, through the whole block, so the block after the body is the stored value. For the weight-sum
  body that is the sum over the leading axis. For the main body the stored value is, operation for operation, the
  concatenation of the seven groups (the stacks being the field slabs the two pair tables name, in order), so its entry
  at batch row `b` and pair `p` is `∑ e, (x[b, first p, e] · s[p, e]) · x[b, second p, e]`.
-/
import proofs.«110757_j56392920597050_1_alg».proof.Proof.KernelIdealFrameP
import proofs.«110757_j56392920597050_1_alg».proof.Proof.KerPayloads

noncomputable section

namespace Cert.Pairwise.KerSide

open Idealize.ShloMosaic Idealize.ShloMosaic.ValueIdx Cert.KernelIdeal Cert.KernelIdeal.Gen Cert.KernelIdeal.GenP

/-- The weight-sum body's output block at pair `p` and coordinate `e`. -/
theorem ksum_block (x0 : Vec Ideal S64x780x64 .f32) (p : Fin 780) (e : Fin 64) :
    out0_1 (F := Ideal) x0 (ix2 p e) = ∑ a : Fin 64, x0 (ix3 a p e) := by
  unfold out0_1
  rw [View.canon_unit_zero zeros2, View.ld_unit_zero (S := S64x780x64) zeros3]
  exact ksum_payload x0 p e

set_option maxRecDepth 65536 in
set_option maxHeartbeats 4000000 in
/-- The main body's output block is the seven groups side by side: the two sides are the same operations, the
    stacks' pieces being the slabs of the fields the pair tables name. -/
theorem out1_2_eq (x0 : Vec Ideal S32x40x64 .f32) (x1 : Vec Ideal S780x64 .f32) :
    out1_2 (F := Ideal) x0 x1 = mainVal (View.ld x0 r1_0) (View.ld x1 r1_1) :=
  (View.canon_unit_zero zeros2 _ _).trans rfl

/-- The main body's output block at batch row `b` and pair `p`. -/
theorem main_block (x0 : Vec Ideal S32x40x64 .f32) (x1 : Vec Ideal S780x64 .f32) (b : Fin 32) (p : Fin 780) :
    out1_2 (F := Ideal) x0 x1 (ix2 b p)
      = ∑ e : Fin 64, (x0 (ix3 b (Cert.Pairwise.tI p) e) * x1 (ix2 p e)) * x0 (ix3 b (Cert.Pairwise.tJ p) e) := by
  rw [out1_2_eq, View.ld_unit_zero (S := S32x40x64) zeros3, View.ld_unit_zero (S := S780x64) zeros2]
  exact mainVal_apply x0 x1 b p

end Cert.Pairwise.KerSide

end
-- ==== Proof.Spec.lean ====
/-
  The specification shared by both sides: a bilinear interaction of field pairs.

  For an input `x : [2048, 40, 64]` (batch, field, embedding), weights `k : [64, 780, 64]` and two tables
  `tI tJ : Fin 780 → Fin 40` naming the two fields of each of the 780 pairs, the result at `(b, p)` is

      ∑ e, (x[b, tI p, e] · (∑ a, k[a, p, e])) · x[b, tJ p, e]

  on the extended reals. The inner sum is the weight array summed over its leading axis. Both programs compute this
  function with the product grouped exactly this way, so no law beyond the order of a finite sum is needed and the
  finiteness of the inputs is never used.
-/
import Idealize.ShloMosaic.PureOps.Ideal
import Idealize.ShloMosaic.Lib.ValueIdx

noncomputable section

namespace Cert.Pairwise

open Idealize.ShloMosaic Idealize.ShloMosaic.ValueIdx

/-- The weight array summed over its leading axis, at pair `p` and embedding coordinate `e`. -/
def ksumAt (k : (⟨3, ![64, 780, 64]⟩ : Shape).Idx → EReal) (p : Fin 780) (e : Fin 64) : EReal :=
  ∑ a : Fin 64, k (ix3 a p e)

/-- The summed weights as an array `[780, 64]`. -/
def ksum (k : (⟨3, ![64, 780, 64]⟩ : Shape).Idx → EReal) : (⟨2, ![780, 64]⟩ : Shape).Idx → EReal :=
  fun i => ksumAt k (i 0) (i 1)

/-- One interaction from ALREADY SUMMED weights `s : [780, 64]`: pair `p` of batch row `b`. -/
def pairAt (tI tJ : Fin 780 → Fin 40) (x : (⟨3, ![2048, 40, 64]⟩ : Shape).Idx → EReal)
    (s : (⟨2, ![780, 64]⟩ : Shape).Idx → EReal) (b : Fin 2048) (p : Fin 780) : EReal :=
  ∑ e : Fin 64, (x (ix3 b (tI p) e) * s (ix2 p e)) * x (ix3 b (tJ p) e)

/-- The whole result `[2048, 780]` as one function of the two argument arrays. -/
def G (tI tJ : Fin 780 → Fin 40) (x : (⟨3, ![2048, 40, 64]⟩ : Shape).Idx → EReal)
    (k : (⟨3, ![64, 780, 64]⟩ : Shape).Idx → EReal) : (⟨2, ![2048, 780]⟩ : Shape).Idx → EReal :=
  fun i => pairAt tI tJ x (ksum k) (i 0) (i 1)

theorem ksum_apply (k : (⟨3, ![64, 780, 64]⟩ : Shape).Idx → EReal) (p : Fin 780) (e : Fin 64) :
    ksum k (ix2 p e) = ∑ a : Fin 64, k (ix3 a p e) := rfl

theorem G_apply (tI tJ : Fin 780 → Fin 40) (x : (⟨3, ![2048, 40, 64]⟩ : Shape).Idx → EReal)
    (k : (⟨3, ![64, 780, 64]⟩ : Shape).Idx → EReal) (b : Fin 2048) (p : Fin 780) :
    G tI tJ x k (ix2 b p) = ∑ e : Fin 64, (x (ix3 b (tI p) e) * ksum k (ix2 p e)) * x (ix3 b (tJ p) e) := rfl

end Cert.Pairwise

end
-- ==== Proof.KerArrays.lean ====
/-
  What the two grid regions leave in their output arrays, as functions of the arrays they read.

  FIRST REGION (one grid point). Its input window is the whole weight array `k : [64, 780, 64]` and its output window the
  whole intermediate array `[780, 64]`; the body leaves at `(p, e)` the sum `∑ a, k[a, p, e]` of the input block over
  its leading axis. The single block is the whole array, so the intermediate array ends as the weight array summed over
  its leading axis.

  SECOND REGION (64 grid points). At point `t` the input window over `x : [2048, 40, 64]` holds batch rows
  `32 t … 32 t + 31` (entry `(b', f, e)` of the block is `x[32 t + b', f, e]`), the second window holds the whole
  intermediate array `s`, and the output window is rows `32 t … 32 t + 31` of the result `[2048, 780]`. The body leaves at
  `(b', p)` of its block the interaction `∑ e, (x0[b', i p, e] · s[p, e]) · x0[b', j p, e]` of the two fields `i p`, `j p`
  of pair `p`. So point `t` writes back exactly rows `32 t … 32 t + 31` of ONE function of `x` and `s`, the row `r` of the
  result is covered by the point `r / 32`, and the result array ends as that function whatever it held before.
-/
import proofs.«110757_j56392920597050_1_alg».proof.Proof.KernelIdealFrameP
import proofs.«110757_j56392920597050_1_alg».proof.Proof.Spec
import proofs.«110757_j56392920597050_1_alg».proof.Proof.Tables
import Idealize.ShloMosaic.Lib.Pipeline.Value

noncomputable section

namespace Cert.Pairwise.KerSide

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.GenP

/-- The first body's law: at `(p, e)` it leaves the input block summed over its leading axis. -/
abbrev SumsLeadingAxis : Prop :=
  ∀ (x0 : Vec Ideal S64x780x64 .f32) (p : Fin 780) (e : Fin 64),
    out0_1 (F := Ideal) x0 (ix2 p e) = ∑ a : Fin 64, x0 (ix3 a p e)

/-- The second body's law: at `(b, p)` it leaves the interaction of the two fields of pair `p` in row `b` of its input
    block, weighted by row `p` of its second block. -/
abbrev Interacts : Prop :=
  ∀ (x0 : Vec Ideal S32x40x64 .f32) (x1 : Vec Ideal S780x64 .f32) (b : Fin 32) (p : Fin 780),
    out1_2 (F := Ideal) x0 x1 (ix2 b p)
      = ∑ e : Fin 64, (x0 (ix3 b (Cert.Pairwise.tI p) e) * x1 (ix2 p e)) * x0 (ix3 b (Cert.Pairwise.tJ p) e)

/-! ## The first region: the weights summed over their leading axis -/

section Weights

variable {F : FTy → Type} [FloatOps F]
variable (V : (c : Dev nD) → (b : Ref sig .tc) → Buf (Elt F) ((c : Thread nD τ).loc b))

/-- The one grid point's block index is zero on every axis, for both windows. -/
theorem weights_index : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0 :=
  (by decide +kernel : ∀ t : Fin grid0.N, _)

/-- The input block of the first region is the weight array itself. -/
theorem weights_block_apply (c : Dev nD) (t : Fin cfg0.N) (x : S64x780x64.Idx) :
    (iblk0 V c 0 t : Vec F S64x780x64 .f32) x = (V c main_arg1 : S64x780x64.Idx → Elt F .f32) x := by
  obtain ⟨h0, h1, h2, -, -⟩ := weights_index t
  unfold iblk0
  rw [View.read_apply]
  show V c main_arg1 _ = V c main_arg1 _
  congr 1
  funext a
  apply Fin.ext
  match a with
  | ⟨0, _⟩ => show win0_0.index t (0 : Fin 3) * 64 + 1 * (x 0).val = (x 0).val; rw [h0]; omega
  | ⟨1, _⟩ => show win0_0.index t (1 : Fin 3) * 780 + 1 * (x 1).val = (x 1).val; rw [h1]; omega
  | ⟨2, _⟩ => show win0_0.index t (2 : Fin 3) * 64 + 1 * (x 2).val = (x 2).val; rw [h2]; omega

theorem weights_block (c : Dev nD) (t : Fin cfg0.N) :
    (iblk0 V c 0 t : Vec F S64x780x64 .f32) = (V c main_arg1 : S64x780x64.Idx → Elt F .f32) :=
  funext fun x => weights_block_apply V c t x

end Weights

section WeightsIdeal

variable (V : (c : Dev nD) → (b : Ref sig .tc) → Buf (Elt Ideal) ((c : Thread nD τ).loc b))

/-- What the first body leaves, as an array: its input block summed over the leading axis. -/
theorem weights_out (hks : SumsLeadingAxis) (x0 : Vec Ideal S64x780x64 .f32) :
    out0_1 (F := Ideal) x0 = Cert.Pairwise.ksum x0 :=
  funext fun i => (congrArg (out0_1 (F := Ideal) x0) (eq_ix2 i)).trans (hks x0 (i 0) (i 1))

/-- The one write-back of the first region writes the summed weights, read through the point's block. -/
theorem weights_flushed (hks : SumsLeadingAxis) (c : Dev nD) (t : Fin cfg0.N) :
    (dat0 V c).flushed 1 t
      = ((cfg0.win 1).blk t).view.read (Elt Ideal) (Cert.Pairwise.ksum (V c main_arg1 : S64x780x64.Idx → EReal)) := by
  have hb : out0_1 (F := Ideal) (iblk0 V c 0 t) = Cert.Pairwise.ksum (V c main_arg1 : S64x780x64.Idx → EReal) :=
    (weights_out hks (iblk0 V c 0 t)).trans (congrArg Cert.Pairwise.ksum (weights_block V c t))
  show (cfg0.win 1).cut (grid0.coords t) ((dat0 V c).after 1 t) = _
  rw [after0_1, hb]
  obtain ⟨-, -, -, h0, h1⟩ := weights_index t
  funext j
  show Cert.Pairwise.ksum (V c main_arg1 : S64x780x64.Idx → EReal) ((cfg0.win 1).xinj (grid0.coords t) j)
    = Cert.Pairwise.ksum (V c main_arg1 : S64x780x64.Idx → EReal) (((cfg0.win 1).blk t).view.emb j)
  refine congrArg (Cert.Pairwise.ksum (V c main_arg1 : S64x780x64.Idx → EReal)) ?_
  funext a
  apply Fin.ext
  match a with
  | ⟨0, _⟩ => show (j 0).val = win0_1.index t (0 : Fin 2) * 780 + 1 * (j 0).val; rw [h0]; omega
  | ⟨1, _⟩ => show (j 1).val = win0_1.index t (1 : Fin 2) * 64 + 1 * (j 1).val; rw [h1]; omega

/-- The point's block covers the whole intermediate array. -/
theorem weights_cover (i : S780x64.Idx) :
    ∃ t : Fin cfg0.N, (cfg0.win 1).flush t = true ∧ i ∈ ((cfg0.win 1).blk t).view.set := by
  refine ⟨t0_0, flush0_1 t0_0, ?_⟩
  obtain ⟨-, -, -, h0, h1⟩ := weights_index t0_0
  show i ∈ ((View.whole main_v0).slice (win0_1.rect t0_0)).set
  rw [View.set_slice_whole, Rect.mem_set_unit]
  intro a
  have b0 : (i 0).val < 780 := (i 0).isLt
  have b1 : (i 1).val < 64 := (i 1).isLt
  match a with
  | ⟨0, _⟩ => show win0_1.index t0_0 (0 : Fin 2) * 780 ≤ (i 0).val ∧ (i 0).val < win0_1.index t0_0 (0 : Fin 2) * 780 + 780; rw [h0]; omega
  | ⟨1, _⟩ => show win0_1.index t0_0 (1 : Fin 2) * 64 ≤ (i 1).val ∧ (i 1).val < win0_1.index t0_0 (1 : Fin 2) * 64 + 64; rw [h1]; omega

/-- THE INTERMEDIATE ARRAY after the first region: the weight array summed over its leading axis. -/
theorem weights_final (hks : SumsLeadingAxis) (c : Dev nD) :
    (dat0 V c).arrAt 1 cfg0.N = Cert.Pairwise.ksum (V c main_arg1 : S64x780x64.Idx → EReal) :=
  (dat0 V c).arrAt_eq_of_cover 1 (Cert.Pairwise.ksum (V c main_arg1 : S64x780x64.Idx → EReal))
    (fun t _ => weights_flushed V hks c t) weights_cover

end WeightsIdeal

/-! ## The second region: the pairwise interactions, 32 batch rows per grid point -/

section Rows

variable {F : FTy → Type} [FloatOps F]
variable (V : (c : Dev nD) → (b : Ref sig .tc) → Buf (Elt F) ((c : Thread nD τ).loc b))

/-- The block indices of the three windows at grid point `t`: the input rows and the result rows move with the point,
    the intermediate array stays whole. -/
theorem rows_index : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `(b', f, e)` of the input block at point `t` is entry `(32 t + b', f, e)` of the input array. -/
theorem rows_block_apply (c : Dev nD) (t : Fin cfg1.N) (x : S32x40x64.Idx) (k : S2048x40x64.Idx)
    (hk0 : (k 0).val = 32 * t.val + (x 0).val) (hk1 : (k 1).val = (x 1).val) (hk2 : (k 2).val = (x 2).val) :
    (iblk1 V c 0 t : Vec F S32x40x64 .f32) x = (V c main_arg0 : S2048x40x64.Idx → Elt F .f32) k := by
  obtain ⟨h0, h1, h2, -, -, -, -⟩ := rows_index t
  unfold iblk1
  rw [View.read_apply]
  show V c main_arg0 _ = V c main_arg0 _
  congr 1
  funext a
  apply Fin.ext
  match a with
  | ⟨0, _⟩ => show win1_0.index t (0 : Fin 3) * 32 + 1 * (x 0).val = (k 0).val; rw [h0, hk0]; omega
  | ⟨1, _⟩ => show win1_0.index t (1 : Fin 3) * 40 + 1 * (x 1).val = (k 1).val; rw [h1, hk1]; omega
  | ⟨2, _⟩ => show win1_0.index t (2 : Fin 3) * 64 + 1 * (x 2).val = (k 2).val; rw [h2, hk2]; omega

/-- The second window's block at every point is the whole intermediate array. -/
theorem mid_block_apply (c : Dev nD) (t : Fin cfg1.N) (x : S780x64.Idx) :
    (iblk1 V c 1 t : Vec F S780x64 .f32) x = (V c main_v0 : S780x64.Idx → Elt F .f32) x := by
  obtain ⟨-, -, -, h0, h1, -, -⟩ := rows_index t
  unfold iblk1
  rw [View.read_apply]
  show V c main_v0 _ = V c main_v0 _
  congr 1
  funext a
  apply Fin.ext
  match a with
  | ⟨0, _⟩ => show win1_1.index t (0 : Fin 2) * 780 + 1 * (x 0).val = (x 0).val; rw [h0]; omega
  | ⟨1, _⟩ => show win1_1.index t (1 : Fin 2) * 64 + 1 * (x 1).val = (x 1).val; rw [h1]; omega

end Rows

section RowsIdeal

variable (V : (c : Dev nD) → (b : Ref sig .tc) → Buf (Elt Ideal) ((c : Thread nD τ).loc b))

/-- The result as one function of the input array `x` and the intermediate array `s`: the interaction of pair `p` in
    batch row `b`. -/
def interact (x : S2048x40x64.Idx → EReal) (s : S780x64.Idx → EReal) : S2048x780.Idx → EReal :=
  fun i => Cert.Pairwise.pairAt Cert.Pairwise.tI Cert.Pairwise.tJ x s (i 0) (i 1)

/-- What the second body leaves at an entry of its block, the entry given by its index. -/
theorem rows_out_apply (hmain : Interacts) (x0 : Vec Ideal S32x40x64 .f32) (x1 : Vec Ideal S780x64 .f32) (i : S32x780.Idx) :
    out1_2 (F := Ideal) x0 x1 i
      = ∑ e : Fin 64, (x0 (ix3 (i 0) (Cert.Pairwise.tI (i 1)) e) * x1 (ix2 (i 1) e)) * x0 (ix3 (i 0) (Cert.Pairwise.tJ (i 1)) e) :=
  (congrArg (out1_2 (F := Ideal) x0 x1) (eq_ix2 i)).trans (hmain x0 x1 (i 0) (i 1))

/-- Entry `(b', p)` of what a point leaves is entry `(32 t + b', p)` of the interaction array of `x` and `s`, when the
    point's first block is rows `32 t …` of `x` and its second block is `s`. -/
theorem rows_point_of_reads (hmain : Interacts) (x0 : Vec Ideal S32x40x64 .f32) (x1 : Vec Ideal S780x64 .f32)
    (x : S2048x40x64.Idx → EReal) (s : S780x64.Idx → EReal) (t : Nat) (i : S32x780.Idx) (k : S2048x780.Idx)
    (hk0 : (k 0).val = 32 * t + (i 0).val) (hk1 : (k 1).val = (i 1).val)
    (hx0 : ∀ (y : S32x40x64.Idx) (z : S2048x40x64.Idx), (z 0).val = 32 * t + (y 0).val → (z 1).val = (y 1).val →
      (z 2).val = (y 2).val → x0 y = x z)
    (hx1 : ∀ y : S780x64.Idx, x1 y = s y) :
    out1_2 (F := Ideal) x0 x1 i = interact x s k := by
  refine (rows_out_apply hmain x0 x1 i).trans ?_
  have e1 : (k 1 : Fin 780) = (i 1 : Fin 780) := Fin.ext hk1
  show _ = ∑ e : Fin 64, (x (ix3 (k 0) (Cert.Pairwise.tI (k 1)) e) * s (ix2 (k 1) e)) * x (ix3 (k 0) (Cert.Pairwise.tJ (k 1)) e)
  refine Finset.sum_congr rfl fun e _ => ?_
  have a1 := hx0 (ix3 (i 0) (Cert.Pairwise.tI (i 1)) e) (ix3 (k 0) (Cert.Pairwise.tI (k 1)) e) hk0
    (by show (Cert.Pairwise.tI (k 1)).val = (Cert.Pairwise.tI (i 1)).val; rw [e1]) rfl
  have a2 := hx0 (ix3 (i 0) (Cert.Pairwise.tJ (i 1)) e) (ix3 (k 0) (Cert.Pairwise.tJ (k 1)) e) hk0
    (by show (Cert.Pairwise.tJ (k 1)).val = (Cert.Pairwise.tJ (i 1)).val; rw [e1]) rfl
  have a3 := hx1 (ix2 (i 1) e)
  rw [a1, a2, a3, e1]

/-- Entry `(b', p)` of what point `t` leaves is entry `(32 t + b', p)` of the interaction array of the arrays the region
    reads. -/
theorem rows_point_apply (hmain : Interacts) (c : Dev nD) (t : Fin cfg1.N) (i : S32x780.Idx) (k : S2048x780.Idx)
    (hk0 : (k 0).val = 32 * t.val + (i 0).val) (hk1 : (k 1).val = (i 1).val) :
    out1_2 (F := Ideal) (iblk1 V c 0 t) (iblk1 V c 1 t) i
      = interact (V c main_arg0 : S2048x40x64.Idx → EReal) (V c main_v0 : S780x64.Idx → EReal) k :=
  rows_point_of_reads hmain (iblk1 V c 0 t) (iblk1 V c 1 t) (V c main_arg0) (V c main_v0) t.val i k hk0 hk1
    (fun y z => rows_block_apply V c t y z) (fun y => mid_block_apply V c t y)

/-- WHAT POINT `t` WRITES BACK is rows `32 t … 32 t + 31` of the interaction array of the arrays the region reads. -/
theorem rows_flushed (hmain : Interacts) (c : Dev nD) (t : Fin cfg1.N) :
    (dat1 V c).flushed 2 t
      = ((cfg1.win 2).blk t).view.read (Elt Ideal)
          (interact (V c main_arg0 : S2048x40x64.Idx → EReal) (V c main_v0 : S780x64.Idx → EReal)) := by
  show (cfg1.win 2).cut (grid1.coords t) ((dat1 V c).after 2 t) = _
  rw [after1_2]
  obtain ⟨-, -, -, -, -, h0, h1⟩ := rows_index t
  funext j
  show out1_2 (F := Ideal) (iblk1 V c 0 t) (iblk1 V c 1 t) ((cfg1.win 2).xinj (grid1.coords t) j)
    = interact (V c main_arg0 : S2048x40x64.Idx → EReal) (V c main_v0 : S780x64.Idx → EReal) (((cfg1.win 2).blk t).view.emb j)
  refine rows_point_apply V hmain c t ((cfg1.win 2).xinj (grid1.coords t) j) (((cfg1.win 2).blk t).view.emb j) ?_ ?_
  · show win1_2.index t (0 : Fin 2) * 32 + 1 * (j 0).val = 32 * t.val + (j 0).val; rw [h0]; omega
  · show win1_2.index t (1 : Fin 2) * 780 + 1 * (j 1).val = (j 1).val; rw [h1]; omega

/-- Row `r` of the result is in the block of grid point `r / 32`. -/
theorem rows_cover (i : S2048x780.Idx) :
    ∃ t : Fin cfg1.N, (cfg1.win 2).flush t = true ∧ i ∈ ((cfg1.win 2).blk t).view.set := by
  have b0 : (i 0).val < 2048 := (i 0).isLt
  have b1 : (i 1).val < 780 := (i 1).isLt
  have hN : cfg1.N = 64 := N_1
  have ht : (i 0).val / 32 < cfg1.N := by rw [hN]; omega
  refine ⟨⟨(i 0).val / 32, ht⟩, flush1_2 _, ?_⟩
  obtain ⟨-, -, -, -, -, h0, h1⟩ := rows_index ⟨(i 0).val / 32, ht⟩
  show i ∈ ((View.whole main_v1).slice (win1_2.rect ⟨(i 0).val / 32, ht⟩)).set
  rw [View.set_slice_whole, Rect.mem_set_unit]
  intro a
  match a with
  | ⟨0, _⟩ =>
    show win1_2.index ⟨(i 0).val / 32, ht⟩ (0 : Fin 2) * 32 ≤ (i 0).val
      ∧ (i 0).val < win1_2.index ⟨(i 0).val / 32, ht⟩ (0 : Fin 2) * 32 + 32
    rw [h0]; show (i 0).val / 32 * 32 ≤ (i 0).val ∧ (i 0).val < (i 0).val / 32 * 32 + 32; omega
  | ⟨1, _⟩ =>
    show win1_2.index ⟨(i 0).val / 32, ht⟩ (1 : Fin 2) * 780 ≤ (i 1).val
      ∧ (i 1).val < win1_2.index ⟨(i 0).val / 32, ht⟩ (1 : Fin 2) * 780 + 780
    rw [h1]; omega

/-- THE RESULT ARRAY after the second region: the interaction array of the input array and the intermediate array as the
    region finds them, whatever the result array held before. -/
theorem rows_final (hmain : Interacts) (c : Dev nD) :
    (dat1 V c).arrAt 2 cfg1.N
      = interact (V c main_arg0 : S2048x40x64.Idx → EReal) (V c main_v0 : S780x64.Idx → EReal) :=
  (dat1 V c).arrAt_eq_of_cover 2 (interact (V c main_arg0 : S2048x40x64.Idx → EReal) (V c main_v0 : S780x64.Idx → EReal))
    (fun t _ => rows_flushed V hmain c t) rows_cover

end RowsIdeal

end Cert.Pairwise.KerSide

end
-- ==== Proof.KerRun.lean ====
/-
  The kernel's whole run, with the array it returns named.

  The program is two grid regions in sequence and no host operation. The first region (one grid point) reads the weight
  array whole and leaves an intermediate array; the second (64 grid points) reads the input array 32 batch rows at a time
  together with the whole intermediate array and writes the result array 32 rows at a time. Running the two regions from
  any launch memory terminates without fault, returns the three argument arrays as launched, and returns in the result
  array exactly what the second region's write-backs leave there: the fold, over the 64 grid points in order, of each
  point's block written over the array's contents at entry. That fold is the interaction array of the input array and of
  the intermediate array the first region left, which is the weight array summed over its leading axis: the result is the
  specification's function of the two argument arrays.
-/
import proofs.«110757_j56392920597050_1_alg».proof.Proof.KerArrays

set_option maxRecDepth 16384

noncomputable section

namespace Cert.Pairwise.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array after the second region is what that region's write-backs leave in it. -/
theorem result_eq_fold (c : Dev nD) :
    W2 m ρ c (Proc.devRef .tc main_v1) = (dat1 (V1 m ρ) c).arrAt 2 cfg1.N :=
  W2_arr m ρ c 2

/-- The intermediate array after the first region is what that region's one write-back leaves in it. -/
theorem mid_eq_fold (c : Dev nD) :
    V1 m ρ c main_v0 = (dat0 (V0 m ρ) c).arrAt 1 cfg0.N :=
  W1_arr m ρ c 1

/-- The first region does not touch the input array. -/
theorem mid_input (c : Dev nD) : V1 m ρ c main_arg0 = m ((c : Thread nD τ).loc main_arg0) :=
  W1_of_ne m ρ c main_arg0 (by decide)

set_option backward.isDefEq.respectTransparency.types false in
/-- Every weakly fair execution of the program from a memory with zero counters terminates without fault; the result
    array ends at the second region's fold and the three argument arrays end as launched. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (result_eq_fold m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-! ## The run, read at the ideal instance -/

section Read

open Idealize.ShloMosaic.ValueIdx

variable (mI : (ℓ : Loc nD τ sig) → Buf (Elt Ideal) ℓ)

/-- The second region's fold is the specification's function of the two argument arrays: the second region reads the input
    array as launched and the intermediate array as the first region left it. -/
theorem result_value (hks : SumsLeadingAxis) (hmain : Interacts) (c : Dev nD) :
    (dat1 (V1 mI ρ) c).arrAt 2 cfg1.N
      = Cert.Pairwise.G Cert.Pairwise.tI Cert.Pairwise.tJ (mI ((c.tc : Thread nD τ).loc main_arg0))
          (mI ((c.tc : Thread nD τ).loc main_arg1)) := by
  have e0 : (V1 mI ρ c main_arg0 : S2048x40x64.Idx → EReal) = mI ((c.tc : Thread nD τ).loc main_arg0) := mid_input mI ρ c
  have e1 : (V1 mI ρ c main_v0 : S780x64.Idx → EReal)
      = Cert.Pairwise.ksum (mI ((c.tc : Thread nD τ).loc main_arg1) : S64x780x64.Idx → EReal) :=
    (mid_eq_fold mI ρ c).trans (weights_final (V0 mI ρ) hks c)
  rw [rows_final (V1 mI ρ) hmain c, e0, e1]
  rfl

end Read

/-- THE KERNEL'S RUN: from any launch memory with zero counters every weakly fair execution terminates without fault, the
    result array ends at the specification's function of the two argument arrays, and the arguments end as launched. -/
theorem run
    (hks : ∀ (x0 : Vec Ideal S64x780x64 .f32) (p : Fin 780) (e : Fin 64),
      out0_1 (F := Ideal) x0 (Idealize.ShloMosaic.ValueIdx.ix2 p e) = ∑ a : Fin 64, x0 (Idealize.ShloMosaic.ValueIdx.ix3 a p e))
    (hmain : ∀ (x0 : Vec Ideal S32x40x64 .f32) (x1 : Vec Ideal S780x64 .f32) (b : Fin 32) (p : Fin 780),
      out1_2 (F := Ideal) x0 x1 (Idealize.ShloMosaic.ValueIdx.ix2 b p)
        = ∑ e : Fin 64, (x0 (Idealize.ShloMosaic.ValueIdx.ix3 b (Cert.Pairwise.tI p) e) * x1 (Idealize.ShloMosaic.ValueIdx.ix2 p e))
            * x0 (Idealize.ShloMosaic.ValueIdx.ix3 b (Cert.Pairwise.tJ p) e))
    (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1)
          = Cert.Pairwise.G Cert.Pairwise.tI Cert.Pairwise.tJ
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2)) :=
  (θ_run (Cert.KernelIdeal.defs (F := Ideal)) _ _).mono
    (fun r h c => ⟨(h c).1.trans (result_value ρ m hks hmain c), (h c).2⟩)
    (run_named (F := Ideal) m ρ)

end Cert.Pairwise.KerSide

end
-- ==== Proof.RefRun.lean ====
/-
  The reference program's run. Its @main is a straight line of 24 host operations: two constant index tables, each
  passed through an add-and-select whose mask is constantly false, two gathers of the input along its field axis, the
  weights summed over their leading axis and broadcast, two pointwise products and a sum over the embedding axis.
  Every weakly fair execution terminates with the result buffer at the composed pure term `out` of the two argument
  arrays' launch contents, and the arguments unchanged.
-/
import proofs.«110757_j56392920597050_1_alg».proof.ReferenceIdeal
import Idealize.ShloMosaic.Lib.StableHlo.Run

noncomputable section

namespace Cert.Pairwise.RefSide

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

/-- The index operand of a gather, from a constant table `t` of 780 words: the table, plus 40 where the (constantly
    false) mask holds, as a column `[780, 1]`. -/
def idxOf (F : FTy → Type) [FloatOps F] (t : Fin 780 → BitVec 32) : (⟨S780x1, .i32⟩ : BufTy).Contents (Elt F) :=
  broadcastInDim S780x1 ![0] bcast_S780_S780x1_0
    (select (constantI S780 1 0#1)
      (addi (fun i => t (S780.rowMajor i)) (broadcastInDim S780 ![] bcast_S_S780 (constantI S_ 32 40#32)))
      (fun i => t (S780.rowMajor i)) : (⟨S780, .i32⟩ : BufTy).Contents (Elt F))

/-- The weights summed over their leading axis, broadcast to `[2048, 780, 64]`. -/
def wsum (k : (⟨S64x780x64, .f32⟩ : BufTy).Contents (Elt F)) : (⟨S2048x780x64, .f32⟩ : BufTy).Contents (Elt F) :=
  broadcastInDim S2048x780x64 ![0, 1, 2] bcast_S1x780x64_S2048x780x64_0_1_2
    (broadcastInDim S1x780x64 ![1, 2] bcast_S780x64_S1x780x64_1_2
      (Host.reduceAdd k (constant S_ .f32 0x00000000#32) reducesTo_S64x780x64_S780x64_d0 h_S_ : (⟨S780x64, .f32⟩ : BufTy).Contents (Elt F)) : (⟨S1x780x64, .f32⟩ : BufTy).Contents (Elt F))

/-- The reference's result as one pure term of its two argument arrays. -/
def out (x : (⟨S2048x40x64, .f32⟩ : BufTy).Contents (Elt F)) (k : (⟨S64x780x64, .f32⟩ : BufTy).Contents (Elt F)) :
    (⟨S2048x780, .f32⟩ : BufTy).Contents (Elt F) :=
  Host.reduceAdd
    (mulf (mulf (Host.gather gather_S2048x40x64_S780x1_S2048x780x64_02_1_n_n_1_1_2048164 x (idxOf F lit0)) (wsum k)) (Host.gather gather_S2048x40x64_S780x1_S2048x780x64_02_1_n_n_1_1_2048164 x (idxOf F lit1)) : (⟨S2048x780x64, .f32⟩ : BufTy).Contents (Elt F))
    (constant S_ .f32 0x00000000#32) reducesTo_S2048x780x64_S2048x780_d2 h_S_

/-- @main's 24 operations, in order. -/
abbrev ops : List (HloOp τ sig (Elt F)) :=
  [
    StableHlo.nullary main_c (fun i => lit0 (S780.rowMajor i)),
    StableHlo.nullary main_c_0 (constantI S780 1 0#1),
    StableHlo.nullary main_c_1 (fun i => lit1 (S780.rowMajor i)),
    StableHlo.nullary main_c_2 (constantI S780 1 0#1),
    StableHlo.nullary main_c_3 (constantI S_ 32 40#32),
    StableHlo.unary main_c_3 main_v0 (broadcastInDim S780 ![] bcast_S_S780 : (⟨S_, .i32⟩ : BufTy).Contents (Elt F) → (⟨S780, .i32⟩ : BufTy).Contents (Elt F)),
    StableHlo.binary main_c main_v0 main_v1 (addi : (⟨S780, .i32⟩ : BufTy).Contents (Elt F) → (⟨S780, .i32⟩ : BufTy).Contents (Elt F) → (⟨S780, .i32⟩ : BufTy).Contents (Elt F)),
    StableHlo.ternary main_c_0 main_v1 main_c main_v2 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    StableHlo.unary main_v2 main_v3 (broadcastInDim S780x1 ![0] bcast_S780_S780x1_0 : (⟨S780, .i32⟩ : BufTy).Contents (Elt F) → (⟨S780x1, .i32⟩ : BufTy).Contents (Elt F)),
    StableHlo.binary main_arg0 main_v3 main_v4 ((fun x i => Host.gather gather_S2048x40x64_S780x1_S2048x780x64_02_1_n_n_1_1_2048164 x i) : (⟨S2048x40x64, .f32⟩ : BufTy).Contents (Elt F) → (⟨S780x1, .i32⟩ : BufTy).Contents (Elt F) → (⟨S2048x780x64, .f32⟩ : BufTy).Contents (Elt F)),
    StableHlo.nullary main_c_4 (constantI S_ 32 40#32),
    StableHlo.unary main_c_4 main_v5 (broadcastInDim S780 ![] bcast_S_S780 : (⟨S_, .i32⟩ : BufTy).Contents (Elt F) → (⟨S780, .i32⟩ : BufTy).Contents (Elt F)),
    StableHlo.binary main_c_1 main_v5 main_v6 (addi : (⟨S780, .i32⟩ : BufTy).Contents (Elt F) → (⟨S780, .i32⟩ : BufTy).Contents (Elt F) → (⟨S780, .i32⟩ : BufTy).Contents (Elt F)),
    StableHlo.ternary main_c_2 main_v6 main_c_1 main_v7 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    StableHlo.unary main_v7 main_v8 (broadcastInDim S780x1 ![0] bcast_S780_S780x1_0 : (⟨S780, .i32⟩ : BufTy).Contents (Elt F) → (⟨S780x1, .i32⟩ : BufTy).Contents (Elt F)),
    StableHlo.binary main_arg0 main_v8 main_v9 ((fun x i => Host.gather gather_S2048x40x64_S780x1_S2048x780x64_02_1_n_n_1_1_2048164 x i) : (⟨S2048x40x64, .f32⟩ : BufTy).Contents (Elt F) → (⟨S780x1, .i32⟩ : BufTy).Contents (Elt F) → (⟨S2048x780x64, .f32⟩ : BufTy).Contents (Elt F)),
    StableHlo.nullary main_cst (constant S_ .f32 0x00000000#32),
    StableHlo.binary main_arg1 main_cst main_v10 ((fun x v => Host.reduceAdd x v reducesTo_S64x780x64_S780x64_d0 h_S_) : (⟨S64x780x64, .f32⟩ : BufTy).Contents (Elt F) → (⟨S_, .f32⟩ : BufTy).Contents (Elt F) → (⟨S780x64, .f32⟩ : BufTy).Contents (Elt F)),
    StableHlo.unary main_v10 main_v11 (broadcastInDim S1x780x64 ![1, 2] bcast_S780x64_S1x780x64_1_2 : (⟨S780x64, .f32⟩ : BufTy).Contents (Elt F) → (⟨S1x780x64, .f32⟩ : BufTy).Contents (Elt F)),
    StableHlo.unary main_v11 main_v12 (broadcastInDim S2048x780x64 ![0, 1, 2] bcast_S1x780x64_S2048x780x64_0_1_2 : (⟨S1x780x64, .f32⟩ : BufTy).Contents (Elt F) → (⟨S2048x780x64, .f32⟩ : BufTy).Contents (Elt F)),
    StableHlo.binary main_v4 main_v12 main_v13 (mulf : (⟨S2048x780x64, .f32⟩ : BufTy).Contents (Elt F) → (⟨S2048x780x64, .f32⟩ : BufTy).Contents (Elt F) → (⟨S2048x780x64, .f32⟩ : BufTy).Contents (Elt F)),
    StableHlo.binary main_v13 main_v9 main_v14 (mulf : (⟨S2048x780x64, .f32⟩ : BufTy).Contents (Elt F) → (⟨S2048x780x64, .f32⟩ : BufTy).Contents (Elt F) → (⟨S2048x780x64, .f32⟩ : BufTy).Contents (Elt F)),
    StableHlo.nullary main_cst_5 (constant S_ .f32 0x00000000#32),
    StableHlo.binary main_v14 main_cst_5 main_v15 ((fun x v => Host.reduceAdd x v reducesTo_S2048x780x64_S2048x780_d2 h_S_) : (⟨S2048x780x64, .f32⟩ : BufTy).Contents (Elt F) → (⟨S_, .f32⟩ : BufTy).Contents (Elt F) → (⟨S2048x780, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., unary_bufs_sub .., binary_bufs_sub .., binary_bufs_sub .., nullary_bufs_sub .., binary_bufs_sub ..⟩

/-- What the result buffer holds after the 24 operations, from any contents `V`: `out` of the two arguments' contents. -/
theorem after_v15 (V : Valuation τ sig (Elt F)) :
    after ops V (Proc.devRef .tc main_v15) = out (V (Proc.devRef .tc main_arg0)) (V (Proc.devRef .tc main_arg1)) := by
  after_results; rfl

/-- No operation writes the first argument. -/
theorem after_arg0 (V : Valuation τ sig (Elt F)) : after ops V (Proc.devRef .tc main_arg0) = V (Proc.devRef .tc main_arg0) := by
  after_results_simp

/-- No operation writes the second argument. -/
theorem after_arg1 (V : Valuation τ sig (Elt F)) : after ops V (Proc.devRef .tc main_arg1) = V (Proc.devRef .tc main_arg1) := by
  after_results_simp

/-- No operation writes the third argument. -/
theorem after_arg2 (V : Valuation τ sig (Elt F)) : after ops V (Proc.devRef .tc main_arg2) = V (Proc.devRef .tc main_arg2) := by
  after_results_simp

/-- On the device, for any float values, from any memory with zero counters: every weakly fair execution of @main
    terminates with the result at `out` of the two arguments' launch contents and the three arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v15).trans (after_v15 _),
      (h c main_arg0).trans (after_arg0 _),
      (h c main_arg1).trans (after_arg1 _),
      (h c main_arg2).trans (after_arg2 _)⟩)
    (run_seq scopedRefs_eq scopedSems_eq defs main (fun _ => ops) main_eq (fun _ => ops_sub) m ρ)

end Cert.Pairwise.RefSide

end
-- ==== Proof.RefGather.lean ====
/-
  The reference's operations read at one index. The gather along the field axis of an input `[2048, 40, 64]` at a
  column `[780, 1]` of start indices reads, at `(b, p, e)`, the input at `(b, f, e)` where `f` is start index `p` read
  signed and clamped into `[0, 39]`; a word below 40 is its own clamp. The column of start indices built from a
  constant table through an add-and-select on a constantly false mask is the table. The two broadcasts of the summed
  weights read the summed weights at `(p, e)`, and the host sums over one axis are plain finite sums.
-/
import proofs.«110757_j56392920597050_1_alg».proof.ReferenceIdeal
import Idealize.ShloMosaic.Lib.IdealHost
import Idealize.ShloMosaic.Lib.Pipeline.Value

noncomputable section

namespace Cert.Pairwise.RefSide

open Cert.ReferenceIdeal Idealize.ShloMosaic Idealize.ShloMosaic.ValueIdx
open Cert.ReferenceIdeal.Facts₀ Cert.ReferenceIdeal.Facts
open scoped BigOperators

variable [Cert.ReferenceIdeal.Facts]

local notation "gd" => gather_S2048x40x64_S780x1_S2048x780x64_02_1_n_n_1_1_2048164

/-! ## The gather -/

/-- The start-indices index result index `(b, p, e)` reads its one start-index component at: `(p, 0)`. -/
theorem gd_siIdx (b : Fin 2048) (p : Fin 780) (e : Fin 64) (c : Fin (gd).startIndexMap.length) :
    (gd).siIdx (ix3 b p e) c = ix2 p (0 : Fin 1) := by
  funext a; refine Fin.ext ?_
  match a with
  | ⟨0, _⟩ => rfl
  | ⟨1, _⟩ =>
    have := c.isLt
    show c.val = 0
    have h1 : (gd).startIndexMap.length = 1 := rfl
    omega

/-- THE GATHER READ AT `(b, p, e)`: the input at `(b, f, e)`, `f` the start index `idx[p, 0]` read signed and clamped
    into `[0, 39]`. -/
theorem gather_apply {α : Type} {w : Nat} (x : S2048x40x64.Idx → α) (idx : IVec S780x1 w) (b : Fin 2048) (p : Fin 780) (e : Fin 64) :
    Host.gather gd x idx (ix3 b p e) = x (ix3 b ⟨min (idx (ix2 p (0 : Fin 1))).toInt.toNat 39, by omega⟩ e) := by
  unfold Host.gather
  refine congrArg x (funext fun a => Fin.ext ?_)
  show (gd).start (ix3 b p e) idx a + (gd).batchCoord (ix3 b p e) a + (gd).offCoord (ix3 b p e) a = _
  rw [GatherDims.batchCoord_eq_zero _ _ _ List.not_mem_nil]
  match a with
  | ⟨0, _⟩ =>
    have hs : (gd).start (ix3 b p e) idx ⟨0, by decide⟩ = 0 := by
      unfold GatherDims.start
      rw [dif_neg (show (⟨0, by decide⟩ : Fin 3) ∉ (gd).startIndexMap from (by decide : (⟨0, by decide⟩ : Fin 3) ∉ ([1] : List (Fin 3))))]
    have ho : (gd).offCoord (ix3 b p e) ⟨0, by decide⟩ = b.val := by
      unfold GatherDims.offCoord
      rw [dif_pos (show (⟨0, by decide⟩ : Fin 3) ∈ (gd).sKept from (by decide : (⟨0, by decide⟩ : Fin 3) ∈ S2048x40x64.kept (([1] : List (Fin 3)) ++ [])))]
      rfl
    rw [hs, ho]; exact Nat.zero_add _
  | ⟨1, _⟩ =>
    have ho : (gd).offCoord (ix3 b p e) ⟨1, by decide⟩ = 0 :=
      GatherDims.offCoord_eq_zero _ _ _ (show (⟨1, by decide⟩ : Fin 3) ∉ (gd).sKept from (by decide : (⟨1, by decide⟩ : Fin 3) ∉ S2048x40x64.kept (([1] : List (Fin 3)) ++ [])))
    have hs : (gd).start (ix3 b p e) idx ⟨1, by decide⟩ = min (idx (ix2 p (0 : Fin 1))).toInt.toNat 39 := by
      unfold GatherDims.start
      rw [dif_pos (show (⟨1, by decide⟩ : Fin 3) ∈ (gd).startIndexMap from (by decide : (⟨1, by decide⟩ : Fin 3) ∈ ([1] : List (Fin 3)))), gd_siIdx]
      rfl
    rw [hs, ho]; rfl
  | ⟨2, _⟩ =>
    have hs : (gd).start (ix3 b p e) idx ⟨2, by decide⟩ = 0 := by
      unfold GatherDims.start
      rw [dif_neg (show (⟨2, by decide⟩ : Fin 3) ∉ (gd).startIndexMap from (by decide : (⟨2, by decide⟩ : Fin 3) ∉ ([1] : List (Fin 3))))]
    have ho : (gd).offCoord (ix3 b p e) ⟨2, by decide⟩ = e.val := by
      unfold GatherDims.offCoord
      rw [dif_pos (show (⟨2, by decide⟩ : Fin 3) ∈ (gd).sKept from (by decide : (⟨2, by decide⟩ : Fin 3) ∈ S2048x40x64.kept (([1] : List (Fin 3)) ++ [])))]
      rfl
    rw [hs, ho]; exact Nat.zero_add _

/-- A 32-bit word below 40, read signed and clamped into `[0, 39]`, is itself. -/
theorem clamp_of_lt (v : BitVec 32) (h : v.toNat < 40) : min v.toInt.toNat 39 = v.toNat := by
  have hi : v.toInt = (v.toNat : Int) := by
    rw [BitVec.toInt_eq_toNat_cond, if_pos (by omega)]
  rw [hi, Int.toNat_natCast]
  exact Nat.min_eq_left (by omega)

/-! ## The index column -/

/-- The row-major position of index `p` of a one-axis shape is `p`. -/
theorem rowMajor_ix1 (p : Fin 780) : S780.rowMajor (ix1 p) = p :=
  Fin.ext (Shape.rowMajor_val_one (ix1 p))

/-- A vector `[780]` broadcast to a column `[780, 1]` reads the vector at the row. -/
theorem bcast_col_apply {α : Type} (X : S780.Idx → α) (p : Fin 780) :
    broadcastInDim S780x1 ![0] bcast_S780_S780x1_0 X (ix2 p (0 : Fin 1)) = X (ix1 p) :=
  broadcastInDim_apply _ _ X _ (ix1 p) fun a => match a with | ⟨0, _⟩ => rfl

/-- The index column built from a table `T`: where the constantly false mask holds, `T` plus 40, elsewhere `T`; so `T`. -/
theorem idx_col_apply (T A : IVec S780 32) (p : Fin 780) :
    broadcastInDim S780x1 ![0] bcast_S780_S780x1_0 (select (constantI S780 1 0#1) A T) (ix2 p (0 : Fin 1)) = T (ix1 p) := by
  rw [bcast_col_apply, select_apply]
  exact select_zero _ _

/-! ## The summed weights -/

/-- The weights' sum over the leading axis, a plain finite sum. -/
theorem sum0_apply (k : FVec Ideal S64x780x64 .f32) (p : Fin 780) (e : Fin 64) :
    Host.reduceAdd (F := Ideal) k (constant (F := Ideal) S_ .f32 0x00000000#32) reducesTo_S64x780x64_S780x64_d0 h_S_ (ix2 p e)
      = ∑ a : Fin 64, k (ix3 a p e) := by
  have hr : S64x780x64.Reduces [0] S780x64 := by decide
  refine (hostReduceAdd_apply k _ _ _ _).trans ?_
  refine (Ideal.hostReduceAdd_single _ hr k _ _).trans ?_
  rw [constant_apply, Ideal.ofBits_zero_f32, zero_add]
  refine Finset.sum_congr rfl fun a _ => congrArg k ?_
  funext c; refine Fin.ext ?_
  match c with
  | ⟨0, _⟩ => rfl
  | ⟨1, _⟩ => rfl
  | ⟨2, _⟩ => rfl

/-- The summed weights `[780, 64]`, broadcast to `[1, 780, 64]` and then over the batch, read the summed weights. -/
theorem bcast_w_apply {α : Type} (Y : S780x64.Idx → α) (b : Fin 2048) (p : Fin 780) (e : Fin 64) :
    broadcastInDim S2048x780x64 ![0, 1, 2] bcast_S1x780x64_S2048x780x64_0_1_2
      (broadcastInDim S1x780x64 ![1, 2] bcast_S780x64_S1x780x64_1_2 Y) (ix3 b p e) = Y (ix2 p e) := by
  refine (broadcastInDim_apply _ _ _ _ (ix3 (0 : Fin 1) p e) fun a => ?_).trans ?_
  · match a with
    | ⟨0, _⟩ => rfl
    | ⟨1, _⟩ => rfl
    | ⟨2, _⟩ => rfl
  · refine broadcastInDim_apply _ _ Y _ (ix2 p e) fun a => ?_
    match a with
    | ⟨0, _⟩ => rfl
    | ⟨1, _⟩ => rfl

/-! ## The sum over the embedding axis -/

/-- The final sum over the last axis, a plain finite sum. -/
theorem sum2_apply (v : FVec Ideal S2048x780x64 .f32) (b : Fin 2048) (p : Fin 780) :
    Host.reduceAdd (F := Ideal) v (constant (F := Ideal) S_ .f32 0x00000000#32) reducesTo_S2048x780x64_S2048x780_d2 h_S_ (ix2 b p)
      = ∑ e : Fin 64, v (ix3 b p e) := by
  have hr : S2048x780x64.Reduces [2] S2048x780 := by decide
  refine (hostReduceAdd_apply v _ _ _ _).trans ?_
  refine (Ideal.hostReduceAdd_single _ hr v _ _).trans ?_
  rw [constant_apply, Ideal.ofBits_zero_f32, zero_add]
  refine Finset.sum_congr rfl fun e _ => congrArg v ?_
  funext c; refine Fin.ext ?_
  match c with
  | ⟨0, _⟩ => rfl
  | ⟨1, _⟩ => rfl
  | ⟨2, _⟩ => rfl

end Cert.Pairwise.RefSide

end
-- ==== Proof.RefValue.lean ====
/-
  The reference's value. Read at `(b, p)`, the composed term of the run is the sum over the embedding coordinate `e` of
  `(x[b, f₀ p, e] · Σₐ k[a, p, e]) · x[b, f₁ p, e]`, where `f₀ p`, `f₁ p` are the entries of the two constant tables:
  each gather's start index is its table's entry (the add of 40 sits under a constantly false mask), every entry is
  below 40 so the gather's clamp is the identity, and the two host sums are plain finite sums. That is the shared
  specification at the tables' entries as field numbers.
-/
import proofs.«110757_j56392920597050_1_alg».proof.Proof.RefRun
import proofs.«110757_j56392920597050_1_alg».proof.Proof.RefGather
import proofs.«110757_j56392920597050_1_alg».proof.Proof.Spec
import proofs.«110757_j56392920597050_1_alg».proof.Proof.Tables

noncomputable section

namespace Cert.Pairwise.RefSide

open Cert.ReferenceIdeal Idealize.ShloMosaic Idealize.ShloMosaic.TcCoe Idealize.SL.Sem Idealize.ShloMosaic.ValueIdx
open Cert.ReferenceIdeal.Facts₀ Cert.ReferenceIdeal.Facts
open scoped BigOperators

variable [Cert.ReferenceIdeal.Facts]

/-- A gather's index column at row `p` is its table's entry `p`. -/
theorem idxOf_apply (t : Fin 780 → BitVec 32) (p : Fin 780) : idxOf Ideal t (ix2 p (0 : Fin 1)) = t p := by
  unfold idxOf
  rw [idx_col_apply]
  exact congrArg t (rowMajor_ix1 p)

/-- The gather of the first table's fields: the input at field `tI p`. -/
theorem gather0_apply (x : FVec Ideal S2048x40x64 .f32) (b : Fin 2048) (p : Fin 780) (e : Fin 64) :
    Host.gather gather_S2048x40x64_S780x1_S2048x780x64_02_1_n_n_1_1_2048164 x (idxOf Ideal lit0) (ix3 b p e) = x (ix3 b (tI p) e) := by
  rw [gather_apply]
  refine congrArg x ?_
  refine congrArg (fun f => ix3 b f e) (Fin.ext ?_)
  show min (idxOf Ideal lit0 (ix2 p (0 : Fin 1))).toInt.toNat 39 = (lit0 p).toNat
  rw [idxOf_apply]
  exact clamp_of_lt _ (lit0_lt p)

/-- The gather of the second table's fields: the input at field `tJ p`. -/
theorem gather1_apply (x : FVec Ideal S2048x40x64 .f32) (b : Fin 2048) (p : Fin 780) (e : Fin 64) :
    Host.gather gather_S2048x40x64_S780x1_S2048x780x64_02_1_n_n_1_1_2048164 x (idxOf Ideal lit1) (ix3 b p e) = x (ix3 b (tJ p) e) := by
  rw [gather_apply]
  refine congrArg x ?_
  refine congrArg (fun f => ix3 b f e) (Fin.ext ?_)
  show min (idxOf Ideal lit1 (ix2 p (0 : Fin 1))).toInt.toNat 39 = (lit1 p).toNat
  rw [idxOf_apply]
  exact clamp_of_lt _ (lit1_lt p)

/-- The broadcast summed weights at `(b, p, e)`: the weights summed over their leading axis at `(p, e)`. -/
theorem wsum_apply (k : FVec Ideal S64x780x64 .f32) (b : Fin 2048) (p : Fin 780) (e : Fin 64) :
    wsum (F := Ideal) k (ix3 b p e) = ksum k (ix2 p e) := by
  unfold wsum
  rw [bcast_w_apply, sum0_apply]
  rfl

/-- THE REFERENCE'S VALUE: the composed term of the run is the shared specification at the two tables. -/
theorem out_eq_G (x : FVec Ideal S2048x40x64 .f32) (k : FVec Ideal S64x780x64 .f32) :
    out (F := Ideal) x k = G tI tJ x k := by
  funext i
  obtain ⟨b, p, rfl⟩ : ∃ (b : Fin 2048) (p : Fin 780), i = ix2 b p := ⟨i 0, i 1, eq_ix2 i⟩
  rw [G_apply]
  unfold out
  rw [sum2_apply]
  refine Finset.sum_congr rfl fun e _ => ?_
  rw [mulf_apply, mulf_apply, gather0_apply, gather1_apply, wsum_apply]

/-- On the device, from any memory with zero counters: every weakly fair execution of the reference's @main terminates
    with the result at the shared specification of the two arguments' launch contents, and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v15)
        = Cert.Pairwise.G Cert.Pairwise.tI Cert.Pairwise.tJ (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun _ h c => ⟨(h c).1.trans (out_eq_G _ _), (h c).2⟩) (run_out (F := Ideal) m ρ)

end Cert.Pairwise.RefSide

end
-- ==== Proof.lean ====
/-
  The certificate of the pairwise field-interaction kernel.

  Both programs compute, for an input `x : [2048, 40, 64]` and weights `k : [64, 780, 64]`, the array `[2048, 780]` whose
  entry at batch row `b` and pair `p = (i, j)` (the 780 pairs `i < j < 40` in lexicographic order) is

      ∑ e, (x[b, i, e] · (∑ a, k[a, p, e])) · x[b, j, e]

  (Proof/Spec.lean; the pair tables are the reference's two constant index arrays, Proof/Tables.lean).

  The kernel runs two grids. The first sums the weights over their leading axis in one step. The second walks the batch
  in 64 blocks of 32 rows; for each block it cuts out the 40 fields, and for seven groups of consecutive pairs stacks
  the pairs' first fields and second fields, multiplies the first stack by the group's rows of the summed weights and
  then by the second stack, sums over the 64 coordinates, and lays the seven groups side by side (Proof/KerFields.lean,
  Proof/KerPayloads.lean, Proof/KerMain.lean: the block at an index; the Ker* modules named in the imports below: from the
  blocks to the whole array). The reference gathers the two fields of every pair through the constant tables, multiplies
  by the summed weights and sums (the Ref* modules). The two sides group the product the same way and differ only in
  the order of finite sums, which the extended reals do not see: the precondition is never used.

  The three frames: the two kernels' are the frame certificates of Proof/KernelFrameP.lean and
  Proof/KernelIdealFrameP.lean; the reference's is its run with the result dropped. The ideal pass rewrote nothing, so
  the idealization conjunct is `True`.
-/
import proofs.«110757_j56392920597050_1_alg».proof.Defs
import proofs.«110757_j56392920597050_1_alg».proof.Proof.Gen.Kernel
import proofs.«110757_j56392920597050_1_alg».proof.Proof.Gen.KernelIdeal
import proofs.«110757_j56392920597050_1_alg».proof.Proof.Gen.ReferenceIdeal
import proofs.«110757_j56392920597050_1_alg».proof.Proof.Gen.Pre_finite_inputs
import proofs.«110757_j56392920597050_1_alg».proof.Proof.KernelFrameP
import proofs.«110757_j56392920597050_1_alg».proof.Proof.KernelIdealFrameP
import proofs.«110757_j56392920597050_1_alg».proof.Proof.KerMain
import proofs.«110757_j56392920597050_1_alg».proof.Proof.KerRun
import proofs.«110757_j56392920597050_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.Pairwise.RefSide.run m ρ)

/-- Both runs end with the result array at the one function `Cert.Pairwise.G` of the argument arrays, and the
    arguments agree. -/
theorem algebraic : Cert.algebraic_KernelIdeal_ReferenceIdeal := by
  intro m ρ m' ρ' _ hagree
  refine ⟨_, Cert.Pairwise.KerSide.run Cert.Pairwise.KerSide.ksum_block Cert.Pairwise.KerSide.main_block m ρ, ?_⟩
  refine (θ_run Cert.ReferenceIdeal.defs _ _).mono (fun _ h c => ⟨(h c).1.trans ?_, (h c).2⟩)
    (Cert.Pairwise.RefSide.run m' ρ')
  rw [(hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
